-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel

variable [Facts]

def fn {F : FTy → Type} [FloatOps F] (main_arg0 : FVec F S8x1024x768 .f32) (main_arg1 : FVec F S8x1024x768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024x768 .f32 := Host.absf main_arg1
  let main_cst_0 : FVec F S_ .f32 := constant S_ .f32 0x7F800000#32
  let main_v5 : FVec F S8x1024x768 .f32 := broadcastInDim S8x1024x768 ![] bcast_S_S8x1024x768 main_cst_0
  let main_v6 : IVec S8x1024x768 1 := cmpf .olt main_v4 main_v5
  let main_c_1 : IVec S_ 1 := constantI S_ 1 1#1
  let main_v7 : IVec S_ 1 := (fun x v => Host.reduce IntOp.andi x v reducesTo_S8x1024x768_S_d0_1_2 h_S_) main_v6 main_c_1
  let main_v8 : IVec S_ 1 := andi main_v3 main_v7
  main_v8
-- ==== Kernel.lean ====
abbrev S8x1024x768 : Shape := ⟨3, ![8, 1024, 768]⟩
abbrev S8x2048x768 : Shape := ⟨3, ![8, 2048, 768]⟩
abbrev S1x512x768 : Shape := ⟨3, ![1, 512, 768]⟩
abbrev S512x1 : Shape := ⟨2, ![512, 1]⟩
abbrev S512x768 : Shape := ⟨2, ![512, 768]⟩
abbrev S768x512 : Shape := ⟨2, ![768, 512]⟩
abbrev S512x512 : Shape := ⟨2, ![512, 512]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S8x2048x768, .f32⟩
  | .hbm, ⟨3, _⟩ => ⟨S8x2048x768, .bf16⟩
  | .hbm, ⟨4, _⟩ => ⟨S8x2048x768, .f32⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x512x768, .f32⟩
  | .local _ .vmem, ⟨5, _⟩ => ⟨S1x512x768, .f32⟩
  | .local _ .vmem, ⟨6, _⟩ => ⟨S512x1, .f32⟩
  | .local _ .vmem, ⟨7, _⟩ => ⟨S512x1, .f32⟩
  | .local _ .vmem, ⟨8, _⟩ => ⟨S512x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_23 : BitVec 32 := 0#32
  let v41 : BitVec 1 := Scalar.cmpi .ne v40 c0_i32_23
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  concatenates_S8x1024x768_S8x1024x768_S8x2048x768_d1 : Shape.Concatenates [S8x1024x768, S8x1024x768] S8x2048x768 1
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  transposes_S512x768_p1_0_S768x512 : S512x768.Transposes [1, 0] S768x512
  reduces_S512x512_S512 : S512x512.Reduces [1] S512
  shapeCasts_S512_S512x1 : S512.ShapeCasts S512x1
  broadcasts_S512x1_S512x512 : S512x1.Broadcasts S512x512
  broadcasts_S512x1_S512x768 : S512x1.Broadcasts S512x768
  shapeCasts_S512x768_S1x512x768 : S512x768.ShapeCasts S1x512x768
  dot_S512x768_S768x512_S512x512_1_0_0_1_n_n_wf : DotDims.WF S512x768 S768x512 S512x512 [1] [0] [0] [1] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x2048x768.size a
  hwx0_0 : ∀ i : grid0.Coords, EltTy.bits .bf16 = 32 ∨ (Rect.block (s := S8x2048x768) S1x512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S8x2048x768.size a
  hwx0_1 : ∀ i : grid0.Coords, EltTy.bits .bf16 = 32 ∨ (Rect.block (s := S8x2048x768) S1x512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x768.size a ≤ S8x2048x768.size a
  hwx0_2 : ∀ i : grid0.Coords, EltTy.bits .f32 = 32 ∨ (Rect.block (s := S8x2048x768) S1x512x768.size (cc0_transform_2 i) (hinb0_2 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_v1) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S8x2048x768 : Shape := ⟨3, ![8, 2048, 768]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024x768, .f32⟩
  | .hbm, ⟨2, _⟩ => ⟨S8x2048x768, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  concatenates_S8x1024x768_S8x1024x768_S8x2048x768_d1 : Shape.Concatenates [S8x1024x768, S8x1024x768] S8x2048x768 1
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.WordFlashRuns.lean ====
/-
  The attention kernel's grid is (batch, query tile, key tile), the key tile fastest: four consecutive points share
  one query tile and walk the four key tiles.  The body resets its three scratch buffers (running maximum, running
  sum, running weighted sum) at the first key tile, updates them at every key tile, and stores the quotient into the
  output tile at the last one only.  This module fixes what the later ones are stated over: the arrays as the region
  finds them (the concatenation and its change of format), the two conditions of the body in closed form over the
  point's number, where the output tile is idle, and the memrefs the body is called with.
-/
import proofs.«157192_j51256139710853_2_alg».proof.Proof.Gen.Kernel.Launch
import proofs.«157192_j51256139710853_2_alg».proof.Proof.Gen.Kernel.Skeleton
import proofs.«157192_j51256139710853_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The TensorCore buffers' contents when the region is entered: the launch contents after the two host
    operations (the concatenation of the arguments, then its change of format). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query tile's staging buffer holds the query block at every point: fetched at the first key tile, and the
    body only reads it, so it is still there at the other three. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key tile's staging buffer holds the key block at every point (it is fetched at every point). -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key tile": the condition under which the body resets its scratch buffers. -/
abbrev condFirst (i : grid0.Coords) : Prop := (Scalar.cmpi .ne (Scalar.extui (Scalar.cmpi .eq (BitVec.ofNat 32 (i 2).val) 0#32)) 0#32) = 1#1
/-- It holds at the points whose number is a multiple of four. -/
theorem hcondFirst : ∀ t : Fin cfg0.N, condFirst (grid0.coords t) ↔ t.val % 4 = 0 :=
  (by decide +kernel : ∀ t : Fin grid0.N, condFirst (grid0.coords t) ↔ t.val % 4 = 0)

/-- "This is the last key tile": the condition under which the body stores the output tile. -/
abbrev condLast (i : grid0.Coords) : Prop := k0_cond2 i = 1#1
/-- It holds at the points whose number is three modulo four. -/
theorem hcondLast : ∀ t : Fin cfg0.N, condLast (grid0.coords t) ↔ t.val % 4 = 3 :=
  (by decide +kernel : ∀ t : Fin grid0.N, condLast (grid0.coords t) ↔ t.val % 4 = 3)

/-! ## Where the output tile is idle -/

/-- Away from the last key tile the body stores nothing into the output tile, -/
theorem idleAt_out : ∀ t : Fin cfg0.N, ¬condLast (grid0.coords t) → cfg0.idle 2 (grid0.coords t) = true := by decide +kernel
/-- and the pipeline does not write it back there; -/
theorem noFlush_out : ∀ t : Fin cfg0.N, ¬condLast (grid0.coords t) → (cfg0.win 2).flush t = false := by decide +kernel
/-- at the last key tile the body stores the whole tile. -/
theorem liveAt_out : ∀ t : Fin cfg0.N, condLast (grid0.coords t) → cfg0.idle 2 (grid0.coords t) = false := by decide +kernel

/-! ## The memrefs the body is called with -/

abbrev msq (t : Fin cfg0.N) : Memref sig .tc .vmem S1x512x768 .bf16 := win0_0.stage (cfg0.slots t 0)
abbrev hsq (t : Fin cfg0.N) : (msq t).IsWhole := hstage0_0 ((cfg0.slots t 0).cast nbuf0_0)
abbrev msk (t : Fin cfg0.N) : Memref sig .tc .vmem S1x512x768 .bf16 := win0_1.stage (cfg0.slots t 1)
abbrev hsk (t : Fin cfg0.N) : (msk t).IsWhole := hstage0_1 ((cfg0.slots t 1).cast nbuf0_1)
abbrev mso (t : Fin cfg0.N) : Memref sig .tc .vmem S1x512x768 .f32 := win0_2.stage (cfg0.slots t 2)
abbrev hso (t : Fin cfg0.N) : (mso t).IsWhole := hstage0_2 ((cfg0.slots t 2).cast nbuf0_2)
/-- The three scratch buffers: the running maximum, the running sum, the running weighted sum. -/
abbrev scMax : Memref sig .tc .vmem S512x1 .f32 := Memref.whole cc0_scratch0
abbrev scSum : Memref sig .tc .vmem S512x1 .f32 := Memref.whole cc0_scratch1
abbrev scAcc : Memref sig .tc .vmem S512x768 .f32 := Memref.whole cc0_scratch2
/-- Views through which the contents of the output tile and of the scratch buffers are stated. -/
abbrev VOut : View sig .tc .vmem S1x512x768 .f32 := (Memref.whole cc0_stg2_0 : Memref sig .tc .vmem S1x512x768 .f32).view
abbrev VMax : View sig .tc .vmem S512x1 .f32 := scMax.view
abbrev VSum : View sig .tc .vmem S512x1 .f32 := scSum.view
abbrev VAcc : View sig .tc .vmem S512x768 .f32 := scAcc.view

/-- The core's scoped buffers outside the staging buffers are the three scratch buffers, each at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scSum fullShare d) ∗ (∃ d, owns (c : Thread nD τ) scAcc fullShare d)) := by
  rw [scopedRest0_eq]; simp only [scMax, scSum, scAcc, owns_whole]; try rfl

end Cert.Kernel.Flash

end
-- ==== Proof.WordFlashRunA.lean ====
/-
  The body at a first key tile that is not the last: it resets the scratch buffers, folds the key tile in, and leaves
  the output tile untouched.  The pieces its stores leave in the three scratch buffers are found by running it.
-/
import proofs.«157192_j51256139710853_2_alg».proof.Proof.WordFlashRuns

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first key tile: on whole memrefs, the query and key tiles at `x0`, `x1`, the output tile at any `xo` (handed
    back untouched), the scratch buffers at anything, the body runs and leaves the scratch buffers with the listed
    pieces written. -/
noncomputable def runFirst (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i)
    (x0 : Vec F S1x512x768 .bf16) (x1 : Vec F S1x512x768 .bf16) :
    Σ' (LM : List (View.Piece (Elt F) S512x1 .f32)), Σ' (LS : List (View.Piece (Elt F) S512x1 .f32)), { LA : List (View.Piece (Elt F) S512x768 .f32) //
      ∀ (xo : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare xo
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    iexists _; iexact H8

end Cert.Kernel.Flash

end
-- ==== Proof.WordFlashRunB.lean ====
/-
  The body at a key tile that is neither the first nor the last: it folds the key tile into the scratch buffers, which
  it finds at what the point before left, and leaves the output tile untouched.
-/
import proofs.«157192_j51256139710853_2_alg».proof.Proof.WordFlashRunA

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle key tile: the scratch buffers at `xm`, `xs`, `xa`; the body leaves them with the listed pieces written. -/
noncomputable def runMiddle (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i)
    (x0 : Vec F S1x512x768 .bf16) (x1 : Vec F S1x512x768 .bf16) (xm : Vec F S512x1 .f32) (xs : Vec F S512x1 .f32) (xa : Vec F S512x768 .f32) :
    Σ' (LM : List (View.Piece (Elt F) S512x1 .f32)), Σ' (LS : List (View.Piece (Elt F) S512x1 .f32)), { LA : List (View.Piece (Elt F) S512x768 .f32) //
      ∀ (xo : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare xo
            ∗ owns (c : Thread nD τ) arg6 fullShare xm ∗ owns (c : Thread nD τ) arg7 fullShare xs ∗ owns (c : Thread nD τ) arg8 fullShare xa
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    iexists _; iexact H8

end Cert.Kernel.Flash

end
-- ==== Proof.WordFlashRunC.lean ====
/-
  The body at the last key tile: it folds the key tile into the scratch buffers and stores the weighted sum divided
  by the sum of the weights into the output tile, which it covers.
-/
import proofs.«157192_j51256139710853_2_alg».proof.Proof.WordFlashRunB

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last key tile: the scratch buffers at `xm`, `xs`, `xa`, the output tile at anything; the body leaves the
    scratch buffers and the output tile with the listed pieces written. -/
noncomputable def runLast (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i)
    (x0 : Vec F S1x512x768 .bf16) (x1 : Vec F S1x512x768 .bf16) (xm : Vec F S512x1 .f32) (xs : Vec F S512x1 .f32) (xa : Vec F S512x768 .f32) :
    Σ' (LO : List (View.Piece (Elt F) S1x512x768 .f32)), Σ' (LM : List (View.Piece (Elt F) S512x1 .f32)), Σ' (LS : List (View.Piece (Elt F) S512x1 .f32)), { LA : List (View.Piece (Elt F) S512x768 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xm ∗ owns (c : Thread nD τ) arg7 fullShare xs ∗ owns (c : Thread nD τ) arg8 fullShare xa
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%d2, %f2, -, H2⟩, ⟨%f6, %hf6, H6⟩, ⟨%f7, %hf7, H7⟩, ⟨%f8, %hf8, H8⟩, Hk⟩
    obtain rfl := harg3.eq_unread hf0; obtain rfl := harg4.eq_unread hf1
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H6]; · iexists _; iexact H6
    isplitl [H7]; · iexists _; iexact H7
    iexists _; iexact H8

end Cert.Kernel.Flash

end
-- ==== Proof.WordFlashState.lean ====
/-
  What the scratch buffers and the output tile hold after each grid point, by recursion on the point's number: at a
  first key tile the body's result from scratch buffers it resets; at a later key tile its result from what the point
  before left in them.  The region's invariant carries the three scratch buffers at these contents from point to point.
-/
import proofs.«157192_j51256139710853_2_alg».proof.Proof.WordFlashRunC

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a point: the output tile's staging buffer, the running maximum, the running sum, the running weighted sum. -/
abbrev St (F : FTy → Type) [FloatOps F] : Type := Vec F S1x512x768 .f32 × Vec F S512x1 .f32 × Vec F S512x1 .f32 × Vec F S512x768 .f32

/-- What the body leaves in this buffer at a first key tile: its pieces read back. -/
def runFirstMax (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) : Vec F S512x1 .f32 :=
  VMax.read (Elt F) (VMax.writes (Elt F) VMax.junk (runFirst c i arg3 harg3 arg4 harg4 arg5 harg5 arg6 harg6 arg7 harg7 arg8 harg8 hc0 hc1 x0 x1).1)
/-- The pieces tile the buffer, so they cover it. -/
theorem runFirstMax_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) (y : S512x1.Idx) :
    ∃ pc ∈ (runFirst c i arg3 harg3 arg4 harg4 arg5 harg5 arg6 harg6 arg7 harg7 arg8 harg8 hc0 hc1 x0 x1).1, y ∈ pc.1.set :=
  View.cover_of_tiledL _ S512x1.size (by sl_kernel_rfl) y

/-- What the body leaves in this buffer at a first key tile: its pieces read back. -/
def runFirstSum (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) : Vec F S512x1 .f32 :=
  VSum.read (Elt F) (VSum.writes (Elt F) VSum.junk (runFirst c i arg3 harg3 arg4 harg4 arg5 harg5 arg6 harg6 arg7 harg7 arg8 harg8 hc0 hc1 x0 x1).2.1)
/-- The pieces tile the buffer, so they cover it. -/
theorem runFirstSum_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) (y : S512x1.Idx) :
    ∃ pc ∈ (runFirst c i arg3 harg3 arg4 harg4 arg5 harg5 arg6 harg6 arg7 harg7 arg8 harg8 hc0 hc1 x0 x1).2.1, y ∈ pc.1.set :=
  View.cover_of_tiledL _ S512x1.size (by sl_kernel_rfl) y

/-- What the body leaves in this buffer at a first key tile: its pieces read back. -/
def runFirstAcc (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) : Vec F S512x768 .f32 :=
  VAcc.read (Elt F) (VAcc.writes (Elt F) VAcc.junk (runFirst c i arg3 harg3 arg4 harg4 arg5 harg5 arg6 harg6 arg7 harg7 arg8 harg8 hc0 hc1 x0 x1).2.2.1)
/-- The pieces tile the buffer, so they cover it. -/
theorem runFirstAcc_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) (y : S512x768.Idx) :
    ∃ pc ∈ (runFirst c i arg3 harg3 arg4 harg4 arg5 harg5 arg6 harg6 arg7 harg7 arg8 harg8 hc0 hc1 x0 x1).2.2.1, y ∈ pc.1.set :=
  View.cover_of_tiledL _ S512x768.size (by sl_kernel_rfl) y

/-- What the body leaves in this buffer at a middle key tile: its pieces read back. -/
def runMiddleMax (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) : Vec F S512x1 .f32 :=
  VMax.read (Elt F) (VMax.writes (Elt F) VMax.junk (runMiddle c i arg3 harg3 arg4 harg4 arg5 harg5 arg6 harg6 arg7 harg7 arg8 harg8 hc0 hc1 x0 x1 xm xs xa).1)
/-- The pieces tile the buffer, so they cover it. -/
theorem runMiddleMax_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runMiddle c i arg3 harg3 arg4 harg4 arg5 harg5 arg6 harg6 arg7 harg7 arg8 harg8 hc0 hc1 x0 x1 xm xs xa).1, y ∈ pc.1.set :=
  View.cover_of_tiledL _ S512x1.size (by sl_kernel_rfl) y

/-- What the body leaves in this buffer at a middle key tile: its pieces read back. -/
def runMiddleSum (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) : Vec F S512x1 .f32 :=
  VSum.read (Elt F) (VSum.writes (Elt F) VSum.junk (runMiddle c i arg3 harg3 arg4 harg4 arg5 harg5 arg6 harg6 arg7 harg7 arg8 harg8 hc0 hc1 x0 x1 xm xs xa).2.1)
/-- The pieces tile the buffer, so they cover it. -/
theorem runMiddleSum_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runMiddle c i arg3 harg3 arg4 harg4 arg5 harg5 arg6 harg6 arg7 harg7 arg8 harg8 hc0 hc1 x0 x1 xm xs xa).2.1, y ∈ pc.1.set :=
  View.cover_of_tiledL _ S512x1.size (by sl_kernel_rfl) y

/-- What the body leaves in this buffer at a middle key tile: its pieces read back. -/
def runMiddleAcc (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) : Vec F S512x768 .f32 :=
  VAcc.read (Elt F) (VAcc.writes (Elt F) VAcc.junk (runMiddle c i arg3 harg3 arg4 harg4 arg5 harg5 arg6 harg6 arg7 harg7 arg8 harg8 hc0 hc1 x0 x1 xm xs xa).2.2.1)
/-- The pieces tile the buffer, so they cover it. -/
theorem runMiddleAcc_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) (y : S512x768.Idx) :
    ∃ pc ∈ (runMiddle c i arg3 harg3 arg4 harg4 arg5 harg5 arg6 harg6 arg7 harg7 arg8 harg8 hc0 hc1 x0 x1 xm xs xa).2.2.1, y ∈ pc.1.set :=
  View.cover_of_tiledL _ S512x768.size (by sl_kernel_rfl) y

/-- What the body leaves in this buffer at the last key tile: its pieces read back. -/
def runLastOut (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S1x512x768 .f32 :=
  VOut.read (Elt F) (VOut.writes (Elt F) VOut.junk (runLast c i arg3 harg3 arg4 harg4 arg5 harg5 arg6 harg6 arg7 harg7 arg8 harg8 hc0 hc1 x0 x1 xm xs xa).1)
/-- The pieces tile the buffer, so they cover it. -/
theorem runLastOut_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S1x512x768.Idx) :
    ∃ pc ∈ (runLast c i arg3 harg3 arg4 harg4 arg5 harg5 arg6 harg6 arg7 harg7 arg8 harg8 hc0 hc1 x0 x1 xm xs xa).1, y ∈ pc.1.set :=
  View.cover_of_tiledL _ S1x512x768.size (by sl_kernel_rfl) y

/-- What the body leaves in this buffer at the last key tile: its pieces read back. -/
def runLastMax (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S512x1 .f32 :=
  VMax.read (Elt F) (VMax.writes (Elt F) VMax.junk (runLast c i arg3 harg3 arg4 harg4 arg5 harg5 arg6 harg6 arg7 harg7 arg8 harg8 hc0 hc1 x0 x1 xm xs xa).2.1)
/-- The pieces tile the buffer, so they cover it. -/
theorem runLastMax_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runLast c i arg3 harg3 arg4 harg4 arg5 harg5 arg6 harg6 arg7 harg7 arg8 harg8 hc0 hc1 x0 x1 xm xs xa).2.1, y ∈ pc.1.set :=
  View.cover_of_tiledL _ S512x1.size (by sl_kernel_rfl) y

/-- What the body leaves in this buffer at the last key tile: its pieces read back. -/
def runLastSum (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S512x1 .f32 :=
  VSum.read (Elt F) (VSum.writes (Elt F) VSum.junk (runLast c i arg3 harg3 arg4 harg4 arg5 harg5 arg6 harg6 arg7 harg7 arg8 harg8 hc0 hc1 x0 x1 xm xs xa).2.2.1)
/-- The pieces tile the buffer, so they cover it. -/
theorem runLastSum_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runLast c i arg3 harg3 arg4 harg4 arg5 harg5 arg6 harg6 arg7 harg7 arg8 harg8 hc0 hc1 x0 x1 xm xs xa).2.2.1, y ∈ pc.1.set :=
  View.cover_of_tiledL _ S512x1.size (by sl_kernel_rfl) y

/-- What the body leaves in this buffer at the last key tile: its pieces read back. -/
def runLastAcc (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S512x768 .f32 :=
  VAcc.read (Elt F) (VAcc.writes (Elt F) VAcc.junk (runLast c i arg3 harg3 arg4 harg4 arg5 harg5 arg6 harg6 arg7 harg7 arg8 harg8 hc0 hc1 x0 x1 xm xs xa).2.2.2.1)
/-- The pieces tile the buffer, so they cover it. -/
theorem runLastAcc_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S512x768.Idx) :
    ∃ pc ∈ (runLast c i arg3 harg3 arg4 harg4 arg5 harg5 arg6 harg6 arg7 harg7 arg8 harg8 hc0 hc1 x0 x1 xm xs xa).2.2.2.1, y ∈ pc.1.set :=
  View.cover_of_tiledL _ S512x768.size (by sl_kernel_rfl) y

/-! ## The state after each point -/

/-- After a first key tile `t`. (The output tile is idle there: its component is a placeholder nothing consults.) -/
def firstSt (c : Dev nD) (t : Fin cfg0.N) (hc0 : condFirst (grid0.coords t)) (hc1 : ¬condLast (grid0.coords t)) : St F :=
  (VOut.read (Elt F) VOut.junk,
   runFirstMax c (grid0.coords t) (msq t) (hsq t) (msk t) (hsk t) (mso t) (hso t) scMax (Memref.isWhole_whole _) scSum (Memref.isWhole_whole _) scAcc (Memref.isWhole_whole _) hc0 hc1 (iblk m c 0 t) (iblk m c 1 t),
   runFirstSum c (grid0.coords t) (msq t) (hsq t) (msk t) (hsk t) (mso t) (hso t) scMax (Memref.isWhole_whole _) scSum (Memref.isWhole_whole _) scAcc (Memref.isWhole_whole _) hc0 hc1 (iblk m c 0 t) (iblk m c 1 t),
   runFirstAcc c (grid0.coords t) (msq t) (hsq t) (msk t) (hsk t) (mso t) (hso t) scMax (Memref.isWhole_whole _) scSum (Memref.isWhole_whole _) scAcc (Memref.isWhole_whole _) hc0 hc1 (iblk m c 0 t) (iblk m c 1 t))

/-- After a middle key tile `t`, from the state `p` the point before left. -/
def middleSt (c : Dev nD) (t : Fin cfg0.N) (hc0 : ¬condFirst (grid0.coords t)) (hc1 : ¬condLast (grid0.coords t)) (p : St F) : St F :=
  (VOut.read (Elt F) VOut.junk,
   runMiddleMax c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runMiddleSum c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runMiddleAcc c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2)

/-- After the last key tile `t`, from the state `p` the point before left. -/
def lastSt (c : Dev nD) (t : Fin cfg0.N) (hc0 : ¬condFirst (grid0.coords t)) (hc1 : condLast (grid0.coords t)) (p : St F) : St F :=
  (runLastOut c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runLastMax c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runLastSum c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runLastAcc c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2)

/-- The state after the body at point number `n`. -/
def stateAt (c : Dev nD) : (n : ℕ) → n < cfg0.N → St F
  | 0, hn => firstSt m c ⟨0, hn⟩ ((hcondFirst ⟨0, hn⟩).mpr (Nat.zero_mod _)) (fun h => (fun h => by (try dsimp only at h); omega) ((hcondLast ⟨0, hn⟩).mp h))
  | n + 1, hn =>
    if h0 : (n + 1) % 4 = 0 then
      firstSt m c ⟨n + 1, hn⟩ ((hcondFirst ⟨n + 1, hn⟩).mpr h0) (fun h => (fun h => by (try dsimp only at h); omega) ((hcondLast ⟨n + 1, hn⟩).mp h))
    else if h1 : (n + 1) % 4 = 3 then
      lastSt m c ⟨n + 1, hn⟩ (fun h => h0 ((hcondFirst ⟨n + 1, hn⟩).mp h)) ((hcondLast ⟨n + 1, hn⟩).mpr h1) (stateAt c n (Nat.lt_of_succ_lt hn))
    else
      middleSt m c ⟨n + 1, hn⟩ (fun h => h0 ((hcondFirst ⟨n + 1, hn⟩).mp h)) (fun h => h1 ((hcondLast ⟨n + 1, hn⟩).mp h)) (stateAt c n (Nat.lt_of_succ_lt hn))

theorem stateAt_first (c : Dev nD) (t : Fin cfg0.N) (h0 : t.val % 4 = 0) (hc0 : condFirst (grid0.coords t)) (hc1 : ¬condLast (grid0.coords t)) :
    stateAt m c t.val t.isLt = firstSt m c t hc0 hc1 := by
  obtain ⟨n, hn⟩ := t
  cases n with
  | zero => exact rfl
  | succ n => exact (dif_pos h0).trans rfl

theorem stateAt_middle (c : Dev nD) (t : Fin cfg0.N) (h0 : ¬t.val % 4 = 0) (h1 : ¬t.val % 4 = 3) (hc0 : ¬condFirst (grid0.coords t)) (hc1 : ¬condLast (grid0.coords t)) :
    stateAt m c t.val t.isLt = middleSt m c t hc0 hc1 (stateAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 4 = 0) (h1 : t.val % 4 = 3) (hc0 : ¬condFirst (grid0.coords t)) (hc1 : condLast (grid0.coords t)) :
    stateAt m c t.val t.isLt = lastSt m c t hc0 hc1 (stateAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before point number `n`: at the region's entry the scratch buffers at anything; afterwards each at what the point
    before left in it. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare (stateAt m c n hn).2.1 ∗ owns (c : Thread nD τ) scSum fullShare (stateAt m c n hn).2.2.1
      ∗ owns (c : Thread nD τ) scAcc fullShare (stateAt m c n hn).2.2.2)

theorem Phi_succ (c : Dev nD) (n : ℕ) (hn : n < cfg0.N) :
    Phi m c (n + 1) hn = iprop(owns (c : Thread nD τ) scMax fullShare (stateAt m c n hn).2.1 ∗ owns (c : Thread nD τ) scSum fullShare (stateAt m c n hn).2.2.1
      ∗ owns (c : Thread nD τ) scAcc fullShare (stateAt m c n hn).2.2.2) := rfl

theorem Phi_pos (c : Dev nD) (n : ℕ) (h : n ≤ cfg0.N) (hz : n ≠ 0) :
    Phi m c n h = iprop(owns (c : Thread nD τ) scMax fullShare (stateAt m c (n - 1) (by omega)).2.1 ∗ owns (c : Thread nD τ) scSum fullShare (stateAt m c (n - 1) (by omega)).2.2.1
      ∗ owns (c : Thread nD τ) scAcc fullShare (stateAt m c (n - 1) (by omega)).2.2.2) := by
  cases n with
  | zero => exact absurd rfl hz
  | succ n => rfl

/-- At any point the invariant holds the three scratch buffers at some contents. -/
theorem Phi_some (c : Dev nD) (n : ℕ) (h : n ≤ cfg0.N) :
    Phi m c n h ⊢ iprop((∃ d, owns (c : Thread nD τ) scMax fullShare d) ∗ (∃ d, owns (c : Thread nD τ) scSum fullShare d) ∗ (∃ d, owns (c : Thread nD τ) scAcc fullShare d)) := by
  cases n with
  | zero => exact Entails.of_eq (scratch_eq c)
  | succ n =>
    rw [Phi_succ]
    iintro ⟨HM, HS, HA⟩
    isplitl [HM]; · iexists _; iexact HM
    isplitl [HS]; · iexists _; iexact HS
    iexists _; iexact HA

end Cert.Kernel.Flash

end
-- ==== Proof.WordFlashFrame.lean ====
/-
  The region's frame.  The proof data: both input tiles keep their blocks, the output tile holds the last key tile's
  quotient, the scratch buffers are carried in the invariant.  The body obligation is the three runs, chosen by the
  point's number modulo four.  The launch: the query and the key tiles are two windows on ONE array (the concatenation
  in its narrow format), which the region's entry splits between them, half a share each; nothing else is special.
-/
import proofs.«157192_j51256139710853_2_alg».proof.Proof.WordFlashState

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body each input tile at its block and the output tile at the
    state's first component; the invariant `Phi`; the shared input array split between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := Phi m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = (stateAt m c t.val t.isLt).1 := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

theorem leaves_q (c : Dev nD) (t : Fin cfg0.N) :
    (dats m 0 c).leavesExact 0 t = owns (c : Thread nD τ) (msq t) fullShare (iblk m c 0 t) := by
  rw [show (dats m 0 c).leavesExact 0 t = owns (c : Thread nD τ) (msq t) fullShare ((dats m 0 c).after 0 t) from rfl, after_q]
theorem leaves_k (c : Dev nD) (t : Fin cfg0.N) :
    (dats m 0 c).leavesExact 1 t = owns (c : Thread nD τ) (msk t) fullShare (iblk m c 1 t) := by
  rw [show (dats m 0 c).leavesExact 1 t = owns (c : Thread nD τ) (msk t) fullShare ((dats m 0 c).after 1 t) from rfl, after_k]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msq t) fullShare ((dats m 0 c).before 0 t d))
    ∗ (∃ d, owns (c : Thread nD τ) (msk t) fullShare ((dats m 0 c).before 1 t d))
    ∗ (∃ d, owns (c : Thread nD τ) (mso t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- At a first key tile. -/
theorem body_first (c : Dev nD) (t : Fin cfg0.N) (h0 : t.val % 4 = 0) :
    bodyPre m c t ⊢ wp frame (wpE (defs₀ (F := F)) Variants.none c none) Set.univ (bodyAt0 t) (fun _ => bodyPost m c t) := by
  have hc0 : condFirst (grid0.coords t) := (hcondFirst t).mpr h0
  have hc1 : ¬condLast (grid0.coords t) := fun h => (fun h => by omega) ((hcondLast t).mp h)
  unfold bodyPre bodyPost bodyAt0
  simp only [before_q, before_k]
  rw [show (dats m 0 c).owesAt () t.succ = (dats m 0 c).owesAt () t.castSucc from rfl]
  rw [show (dats m 0 c).Φ t.succ = Phi m c (t.val + 1) t.isLt from rfl, Phi_succ]
  rw [leaves_q, leaves_k, Dat.leavesExact_idle (dats m 0 c) 2 t (idleAt_out t hc1) (noFlush_out t hc1)]
  rw [stateAt_first m c t h0 hc0 hc1]
  unfold firstSt runFirstMax runFirstSum runFirstAcc; (try dsimp only)
  rw [Phi_castSucc m c t]
  iintro ⟨HΦ, Ho, ⟨%d0, H0⟩, ⟨%d1, H1⟩, ⟨%d2, H2⟩⟩
  ihave ⟨HM, HS, HA⟩ := (Phi_some m c t.val (Nat.le_of_lt t.isLt)) $$ HΦ
  iapply ((runFirst c (grid0.coords t) _ _ _ _ _ _ _ _ _ _ _ _ hc0 hc1 (iblk m c 0 t) (iblk m c 1 t)).2.2.2 _ Set.univ _)
  isplitl [H0]; · iexact H0
  isplitl [H1]; · iexact H1
  isplitl [H2]; · iexact H2
  isplitl [HM]; · iexact HM
  isplitl [HS]; · iexact HS
  isplitl [HA]; · iexact HA
  iintro ⟨H0, H1, H2, ⟨%e6, H6⟩, ⟨%e7, H7⟩, ⟨%e8, H8⟩⟩
  isplitl [H6 H7 H8]
  · isplitl [H6]
    · unfold owns; iexists _; isplitr
      swap; · iexact H6
      ipureintro; exact View.read_writes_of_cover _ _ _ _ _ (runFirstMax_cover c _ _ _ _ _ _ _ _ _ _ _ _ _ _ _ _ _)
    isplitl [H7]
    · unfold owns; iexists _; isplitr
      swap; · iexact H7
      ipureintro; exact View.read_writes_of_cover _ _ _ _ _ (runFirstSum_cover c _ _ _ _ _ _ _ _ _ _ _ _ _ _ _ _ _)
    · unfold owns; iexists _; isplitr
      swap; · iexact H8
      ipureintro; exact View.read_writes_of_cover _ _ _ _ _ (runFirstAcc_cover c _ _ _ _ _ _ _ _ _ _ _ _ _ _ _ _ _)
  isplitl [Ho]; · iexact Ho
  isplitl [H0]; · iexact H0
  isplitl [H1]; · iexact H1
  iexists _; iexact H2

set_option maxHeartbeats 4000000 in
/-- At a middle key tile. -/
theorem body_middle (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  have hc0 : ¬condFirst (grid0.coords t) := fun h => h0 ((hcondFirst t).mp h)
  have hc1 : ¬condLast (grid0.coords t) := fun h => h1 ((hcondLast t).mp h)
  have hz : t.val ≠ 0 := fun h => h0 (by rw [h])
  unfold bodyPre bodyPost bodyAt0
  simp only [before_q, before_k]
  rw [show (dats m 0 c).owesAt () t.succ = (dats m 0 c).owesAt () t.castSucc from rfl]
  rw [show (dats m 0 c).Φ t.succ = Phi m c (t.val + 1) t.isLt from rfl, Phi_succ]
  rw [leaves_q, leaves_k, Dat.leavesExact_idle (dats m 0 c) 2 t (idleAt_out t hc1) (noFlush_out t hc1)]
  rw [stateAt_middle m c t h0 h1 hc0 hc1]
  unfold middleSt runMiddleMax runMiddleSum runMiddleAcc; (try dsimp only)
  rw [Phi_castSucc m c t, Phi_pos m c _ _ hz]
  iintro ⟨⟨HM, HS, HA⟩, Ho, ⟨%d0, H0⟩, ⟨%d1, H1⟩, ⟨%d2, H2⟩⟩
  iapply ((runMiddle c (grid0.coords t) _ _ _ _ _ _ _ _ _ _ _ _ hc0 hc1 (iblk m c 0 t) (iblk m c 1 t) _ _ _).2.2.2 _ Set.univ _)
  isplitl [H0]; · iexact H0
  isplitl [H1]; · iexact H1
  isplitl [H2]; · iexact H2
  isplitl [HM]; · iexact HM
  isplitl [HS]; · iexact HS
  isplitl [HA]; · iexact HA
  iintro ⟨H0, H1, H2, ⟨%e6, H6⟩, ⟨%e7, H7⟩, ⟨%e8, H8⟩⟩
  isplitl [H6 H7 H8]
  · isplitl [H6]
    · unfold owns; iexists _; isplitr
      swap; · iexact H6
      ipureintro; exact View.read_writes_of_cover _ _ _ _ _ (runMiddleMax_cover c _ _ _ _ _ _ _ _ _ _ _ _ _ _ _ _ _ _ _ _)
    isplitl [H7]
    · unfold owns; iexists _; isplitr
      swap; · iexact H7
      ipureintro; exact View.read_writes_of_cover _ _ _ _ _ (runMiddleSum_cover c _ _ _ _ _ _ _ _ _ _ _ _ _ _ _ _ _ _ _ _)
    · unfold owns; iexists _; isplitr
      swap; · iexact H8
      ipureintro; exact View.read_writes_of_cover _ _ _ _ _ (runMiddleAcc_cover c _ _ _ _ _ _ _ _ _ _ _ _ _ _ _ _ _ _ _ _)
  isplitl [Ho]; · iexact Ho
  isplitl [H0]; · iexact H0
  isplitl [H1]; · iexact H1
  iexists _; iexact H2

set_option maxHeartbeats 4000000 in
/-- At the last key tile. -/
theorem body_last (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  have hc0 : ¬condFirst (grid0.coords t) := fun h => h0 ((hcondFirst t).mp h)
  have hc1 : condLast (grid0.coords t) := (hcondLast t).mpr h1
  have hz : t.val ≠ 0 := fun h => h0 (by rw [h])
  unfold bodyPre bodyPost bodyAt0
  simp only [before_q, before_k]
  rw [show (dats m 0 c).owesAt () t.succ = (dats m 0 c).owesAt () t.castSucc from rfl]
  rw [show (dats m 0 c).Φ t.succ = Phi m c (t.val + 1) t.isLt from rfl, Phi_succ]
  rw [leaves_q, leaves_k]
  rw [show (dats m 0 c).leavesExact 2 t = owns (c : Thread nD τ) (mso t) fullShare ((dats m 0 c).after 2 t) from by
    unfold Dat.leavesExact; rw [liveAt_out t hc1], after_o]
  rw [stateAt_last m c t h0 h1 hc0 hc1]
  unfold lastSt runLastOut runLastMax runLastSum runLastAcc; (try dsimp only)
  rw [Phi_castSucc m c t, Phi_pos m c _ _ hz]
  iintro ⟨⟨HM, HS, HA⟩, Ho, ⟨%d0, H0⟩, ⟨%d1, H1⟩, ⟨%d2, H2⟩⟩
  iapply ((runLast c (grid0.coords t) _ _ _ _ _ _ _ _ _ _ _ _ hc0 hc1 (iblk m c 0 t) (iblk m c 1 t) _ _ _).2.2.2.2 Set.univ _)
  isplitl [H0]; · iexact H0
  isplitl [H1]; · iexact H1
  isplitl [H2]; · iexists _; iexact H2
  isplitl [HM]; · iexact HM
  isplitl [HS]; · iexact HS
  isplitl [HA]; · iexact HA
  iintro ⟨H0, H1, ⟨%e5, H5⟩, ⟨%e6, H6⟩, ⟨%e7, H7⟩, ⟨%e8, H8⟩⟩
  isplitl [H6 H7 H8]
  · isplitl [H6]
    · unfold owns; iexists _; isplitr
      swap; · iexact H6
      ipureintro; exact View.read_writes_of_cover _ _ _ _ _ (runLastMax_cover c _ _ _ _ _ _ _ _ _ _ _ _ _ _ _ _ _ _ _ _)
    isplitl [H7]
    · unfold owns; iexists _; isplitr
      swap; · iexact H7
      ipureintro; exact View.read_writes_of_cover _ _ _ _ _ (runLastSum_cover c _ _ _ _ _ _ _ _ _ _ _ _ _ _ _ _ _ _ _ _)
    · unfold owns; iexists _; isplitr
      swap; · iexact H8
      ipureintro; exact View.read_writes_of_cover _ _ _ _ _ (runLastAcc_cover c _ _ _ _ _ _ _ _ _ _ _ _ _ _ _ _ _ _ _ _)
  isplitl [Ho]; · iexact Ho
  isplitl [H0]; · iexact H0
  isplitl [H1]; · iexact H1
  unfold owns; iexists _; isplitr
  swap; · iexact H5
  ipureintro; exact View.read_writes_of_cover _ _ _ _ _ (runLastOut_cover c _ _ _ _ _ _ _ _ _ _ _ _ _ _ _ _ _ _ _ _)

/-- The body obligation at every point: the point's number modulo four says which run applies. -/
theorem body_obligation (c : Dev nD) : BodyObligation (dats (F := F) m 0 c) (defs₀ (F := F)) Variants.none () Set.univ := fun t => by
  rw [bigSep_W0, bigSep_W0]
  by_cases h0 : t.val % 4 = 0
  · exact body_first m c t h0
  · by_cases h1 : t.val % 4 = 3
    · exact body_last m c t h0 h1
    · exact body_middle m c t h0 h1

end Cert.Kernel.Flash

end
-- ==== Proof.WordFlashLaunch.lean ====
/-
  The launch of the region and the frame.  The region's entry hands the pipeline the two arrays its windows stand on:
  the concatenation (in its narrow format), read by the query tile and by the key tile, and the result.  The first is
  split between its two windows, half a share each; they only read it, and both halves are read back at the exit.
  The other unscoped buffers (the two arguments and the wide concatenation) bypass the region unchanged.
-/
import proofs.«157192_j51256139710853_2_alg».proof.Proof.WordFlashFrame

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shared input array split between the query window and the key window; the result array held whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  have e (Φ : Ref sig .tc → sProp 𝕄) : bigSep (Finset.univ.image (Pipeline.arrRef spec0)) Φ = iprop(Φ main_v1 ∗ Φ main_v2) :=
    BI.bigSep_eq_bigSepL_of_eq [main_v1, main_v2] (by decide) (by decide) Φ
  rw [bigSep_W0, e]
  simp only [View.set_whole]
  rw [show (dats m 0 c).share 0 = fullShare.left from rfl, show (dats m 0 c).share 1 = fullShare.right from rfl,
    show (dats m 0 c).share 2 = fullShare from rfl]
  iintro ⟨H1, H2⟩
  ihave ⟨Ha, Hb⟩ := (pointsTo_share (PosShare.mem_left_op_right fullShare)).1 $$ H1
  isplitl [Ha]; · iexact Ha
  isplitl [Hb]; · iexact Hb
  iexact H2

set_option maxHeartbeats 4000000 in
set_option backward.isDefEq.respectTransparency.types false in
/-- Every weakly fair execution of the program terminates, nothing faulting, each windowed array at what the write-backs
    leave and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = Phi m c cfg0.N (le_refl _) from rfl]
      refine (Phi_some m c _ _).trans ?_
      rw [scratch_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs and its two argument arrays end unchanged (no window stands on them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Cert.Kernel.Flash

end
-- ==== Proof.FlashRuns.lean ====
/-
  The attention kernel's grid is (batch, query tile, key tile), the key tile fastest: four consecutive points share
  one query tile and walk the four key tiles.  The body resets its three scratch buffers (running maximum, running
  sum, running weighted sum) at the first key tile, updates them at every key tile, and stores the quotient into the
  output tile at the last one only.  This module fixes what the later ones are stated over: the arrays as the region
  finds them (the concatenation and its change of format), the two conditions of the body in closed form over the
  point's number, where the output tile is idle, and the memrefs the body is called with.
-/
import proofs.«157192_j51256139710853_2_alg».proof.Proof.Gen.KernelIdeal.Launch
import proofs.«157192_j51256139710853_2_alg».proof.Proof.Gen.KernelIdeal.Skeleton
import proofs.«157192_j51256139710853_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The TensorCore buffers' contents when the region is entered: the launch contents after the two host
    operations (the concatenation of the arguments, then its change of format). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither host operation writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query tile's staging buffer holds the query block at every point: fetched at the first key tile, and the
    body only reads it, so it is still there at the other three. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key tile's staging buffer holds the key block at every point (it is fetched at every point). -/
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first key tile": the condition under which the body resets its scratch buffers. -/
abbrev condFirst (i : grid0.Coords) : Prop := (Scalar.cmpi .ne (Scalar.extui (Scalar.cmpi .eq (BitVec.ofNat 32 (i 2).val) 0#32)) 0#32) = 1#1
/-- It holds at the points whose number is a multiple of four. -/
theorem hcondFirst : ∀ t : Fin cfg0.N, condFirst (grid0.coords t) ↔ t.val % 4 = 0 :=
  (by decide +kernel : ∀ t : Fin grid0.N, condFirst (grid0.coords t) ↔ t.val % 4 = 0)

/-- "This is the last key tile": the condition under which the body stores the output tile. -/
abbrev condLast (i : grid0.Coords) : Prop := k0_cond2 i = 1#1
/-- It holds at the points whose number is three modulo four. -/
theorem hcondLast : ∀ t : Fin cfg0.N, condLast (grid0.coords t) ↔ t.val % 4 = 3 :=
  (by decide +kernel : ∀ t : Fin grid0.N, condLast (grid0.coords t) ↔ t.val % 4 = 3)

/-! ## Where the output tile is idle -/

/-- Away from the last key tile the body stores nothing into the output tile, -/
theorem idleAt_out : ∀ t : Fin cfg0.N, ¬condLast (grid0.coords t) → cfg0.idle 2 (grid0.coords t) = true := by decide +kernel
/-- and the pipeline does not write it back there; -/
theorem noFlush_out : ∀ t : Fin cfg0.N, ¬condLast (grid0.coords t) → (cfg0.win 2).flush t = false := by decide +kernel
/-- at the last key tile the body stores the whole tile. -/
theorem liveAt_out : ∀ t : Fin cfg0.N, condLast (grid0.coords t) → cfg0.idle 2 (grid0.coords t) = false := by decide +kernel

/-! ## The memrefs the body is called with -/

abbrev msq (t : Fin cfg0.N) : Memref sig .tc .vmem S1x512x768 .bf16 := win0_0.stage (cfg0.slots t 0)
abbrev hsq (t : Fin cfg0.N) : (msq t).IsWhole := hstage0_0 ((cfg0.slots t 0).cast nbuf0_0)
abbrev msk (t : Fin cfg0.N) : Memref sig .tc .vmem S1x512x768 .bf16 := win0_1.stage (cfg0.slots t 1)
abbrev hsk (t : Fin cfg0.N) : (msk t).IsWhole := hstage0_1 ((cfg0.slots t 1).cast nbuf0_1)
abbrev mso (t : Fin cfg0.N) : Memref sig .tc .vmem S1x512x768 .f32 := win0_2.stage (cfg0.slots t 2)
abbrev hso (t : Fin cfg0.N) : (mso t).IsWhole := hstage0_2 ((cfg0.slots t 2).cast nbuf0_2)
/-- The three scratch buffers: the running maximum, the running sum, the running weighted sum. -/
abbrev scMax : Memref sig .tc .vmem S512x1 .f32 := Memref.whole cc0_scratch0
abbrev scSum : Memref sig .tc .vmem S512x1 .f32 := Memref.whole cc0_scratch1
abbrev scAcc : Memref sig .tc .vmem S512x768 .f32 := Memref.whole cc0_scratch2
/-- Views through which the contents of the output tile and of the scratch buffers are stated. -/
abbrev VOut : View sig .tc .vmem S1x512x768 .f32 := (Memref.whole cc0_stg2_0 : Memref sig .tc .vmem S1x512x768 .f32).view
abbrev VMax : View sig .tc .vmem S512x1 .f32 := scMax.view
abbrev VSum : View sig .tc .vmem S512x1 .f32 := scSum.view
abbrev VAcc : View sig .tc .vmem S512x768 .f32 := scAcc.view

/-- The core's scoped buffers outside the staging buffers are the three scratch buffers, each at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scSum fullShare d) ∗ (∃ d, owns (c : Thread nD τ) scAcc fullShare d)) := by
  rw [scopedRest0_eq]; simp only [scMax, scSum, scAcc, owns_whole]; try rfl

end Cert.KernelIdeal.Flash

end
-- ==== Proof.FlashRunA.lean ====
/-
  The body at a first key tile that is not the last: it resets the scratch buffers, folds the key tile in, and leaves
  the output tile untouched.  The pieces its stores leave in the three scratch buffers are found by running it.
-/
import proofs.«157192_j51256139710853_2_alg».proof.Proof.FlashRuns

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a first key tile: on whole memrefs, the query and key tiles at `x0`, `x1`, the output tile at any `xo` (handed
    back untouched), the scratch buffers at anything, the body runs and leaves the scratch buffers with the listed
    pieces written. -/
noncomputable def runFirst (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i)
    (x0 : Vec F S1x512x768 .bf16) (x1 : Vec F S1x512x768 .bf16) :
    Σ' (LM : List (View.Piece (Elt F) S512x1 .f32)), Σ' (LS : List (View.Piece (Elt F) S512x1 .f32)), { LA : List (View.Piece (Elt F) S512x768 .f32) //
      ∀ (xo : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare xo
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%d6, %f6, -, H6⟩, ⟨%d7, %f7, -, H7⟩, ⟨%d8, %f8, -, H8⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    iexists _; iexact H8

end Cert.KernelIdeal.Flash

end
-- ==== Proof.FlashRunB.lean ====
/-
  The body at a key tile that is neither the first nor the last: it folds the key tile into the scratch buffers, which
  it finds at what the point before left, and leaves the output tile untouched.
-/
import proofs.«157192_j51256139710853_2_alg».proof.Proof.FlashRunA

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle key tile: the scratch buffers at `xm`, `xs`, `xa`; the body leaves them with the listed pieces written. -/
noncomputable def runMiddle (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i)
    (x0 : Vec F S1x512x768 .bf16) (x1 : Vec F S1x512x768 .bf16) (xm : Vec F S512x1 .f32) (xs : Vec F S512x1 .f32) (xa : Vec F S512x768 .f32) :
    Σ' (LM : List (View.Piece (Elt F) S512x1 .f32)), Σ' (LS : List (View.Piece (Elt F) S512x1 .f32)), { LA : List (View.Piece (Elt F) S512x768 .f32) //
      ∀ (xo : Vec F S1x512x768 .f32) (E : Set ℕ) (K : PUnit → sProp 𝕄),
        iprop(owns (c : Thread nD τ) arg3 fullShare x0 ∗ owns (c : Thread nD τ) arg4 fullShare x1 ∗ owns (c : Thread nD τ) arg5 fullShare xo
            ∗ owns (c : Thread nD τ) arg6 fullShare xm ∗ owns (c : Thread nD τ) arg7 fullShare xs ∗ owns (c : Thread nD τ) arg8 fullShare xa
            ∗ (iprop(owns (c : Thread nD τ) arg3 fullShare x0 ∗ owns (c : Thread nD τ) arg4 fullShare x1 ∗ owns (c : Thread nD τ) arg5 fullShare xo
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, fun xo E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
    obtain rfl := harg3.eq_unread hf0; obtain rfl := harg4.eq_unread hf1; obtain rfl := harg5.eq_unread hf2
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H6]; · iexists _; iexact H6
    isplitl [H7]; · iexists _; iexact H7
    iexists _; iexact H8

end Cert.KernelIdeal.Flash

end
-- ==== Proof.FlashRunC.lean ====
/-
  The body at the last key tile: it folds the key tile into the scratch buffers and stores the weighted sum divided
  by the sum of the weights into the output tile, which it covers.
-/
import proofs.«157192_j51256139710853_2_alg».proof.Proof.FlashRunB

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last key tile: the scratch buffers at `xm`, `xs`, `xa`, the output tile at anything; the body leaves the
    scratch buffers and the output tile with the listed pieces written. -/
noncomputable def runLast (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i)
    (x0 : Vec F S1x512x768 .bf16) (x1 : Vec F S1x512x768 .bf16) (xm : Vec F S512x1 .f32) (xs : Vec F S512x1 .f32) (xa : Vec F S512x768 .f32) :
    Σ' (LO : List (View.Piece (Elt F) S1x512x768 .f32)), Σ' (LM : List (View.Piece (Elt F) S512x1 .f32)), Σ' (LS : List (View.Piece (Elt F) S512x1 .f32)), { LA : List (View.Piece (Elt F) S512x768 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xm ∗ owns (c : Thread nD τ) arg7 fullShare xs ∗ owns (c : Thread nD τ) arg8 fullShare xa
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LS) ∗ (∃ f, arg8.view.loc (c : Thread nD τ) ↦[arg8.view.set]{fullShare} arg8.view.writes (Elt F) f LA)) -∗ K ⟨⟩))
          ⊢ wp frame (wpE (defs₀ (F := F)) Variants.none c none) E (cc0__flash_kernel i arg3 harg3 arg4 harg4 arg5 harg5 arg6 harg6 arg7 harg7 arg8 harg8) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f0, %hf0, H0⟩, ⟨%f1, %hf1, H1⟩, ⟨%d2, %f2, -, H2⟩, ⟨%f6, %hf6, H6⟩, ⟨%f7, %hf7, H7⟩, ⟨%f8, %hf8, H8⟩, Hk⟩
    obtain rfl := harg3.eq_unread hf0; obtain rfl := harg4.eq_unread hf1
    obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H6]; · iexists _; iexact H6
    isplitl [H7]; · iexists _; iexact H7
    iexists _; iexact H8

end Cert.KernelIdeal.Flash

end
-- ==== Proof.FlashState.lean ====
/-
  What the scratch buffers and the output tile hold after each grid point, by recursion on the point's number: at a
  first key tile the body's result from scratch buffers it resets; at a later key tile its result from what the point
  before left in them.  The region's invariant carries the three scratch buffers at these contents from point to point.
-/
import proofs.«157192_j51256139710853_2_alg».proof.Proof.FlashRunC

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a point: the output tile's staging buffer, the running maximum, the running sum, the running weighted sum. -/
abbrev St (F : FTy → Type) [FloatOps F] : Type := Vec F S1x512x768 .f32 × Vec F S512x1 .f32 × Vec F S512x1 .f32 × Vec F S512x768 .f32

/-- What the body leaves in this buffer at a first key tile: its pieces read back. -/
def runFirstMax (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) : Vec F S512x1 .f32 :=
  VMax.read (Elt F) (VMax.writes (Elt F) VMax.junk (runFirst c i arg3 harg3 arg4 harg4 arg5 harg5 arg6 harg6 arg7 harg7 arg8 harg8 hc0 hc1 x0 x1).1)
/-- The pieces tile the buffer, so they cover it. -/
theorem runFirstMax_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) (y : S512x1.Idx) :
    ∃ pc ∈ (runFirst c i arg3 harg3 arg4 harg4 arg5 harg5 arg6 harg6 arg7 harg7 arg8 harg8 hc0 hc1 x0 x1).1, y ∈ pc.1.set :=
  View.cover_of_tiledL _ S512x1.size (by sl_kernel_rfl) y

/-- What the body leaves in this buffer at a first key tile: its pieces read back. -/
def runFirstSum (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) : Vec F S512x1 .f32 :=
  VSum.read (Elt F) (VSum.writes (Elt F) VSum.junk (runFirst c i arg3 harg3 arg4 harg4 arg5 harg5 arg6 harg6 arg7 harg7 arg8 harg8 hc0 hc1 x0 x1).2.1)
/-- The pieces tile the buffer, so they cover it. -/
theorem runFirstSum_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) (y : S512x1.Idx) :
    ∃ pc ∈ (runFirst c i arg3 harg3 arg4 harg4 arg5 harg5 arg6 harg6 arg7 harg7 arg8 harg8 hc0 hc1 x0 x1).2.1, y ∈ pc.1.set :=
  View.cover_of_tiledL _ S512x1.size (by sl_kernel_rfl) y

/-- What the body leaves in this buffer at a first key tile: its pieces read back. -/
def runFirstAcc (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) : Vec F S512x768 .f32 :=
  VAcc.read (Elt F) (VAcc.writes (Elt F) VAcc.junk (runFirst c i arg3 harg3 arg4 harg4 arg5 harg5 arg6 harg6 arg7 harg7 arg8 harg8 hc0 hc1 x0 x1).2.2.1)
/-- The pieces tile the buffer, so they cover it. -/
theorem runFirstAcc_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) (y : S512x768.Idx) :
    ∃ pc ∈ (runFirst c i arg3 harg3 arg4 harg4 arg5 harg5 arg6 harg6 arg7 harg7 arg8 harg8 hc0 hc1 x0 x1).2.2.1, y ∈ pc.1.set :=
  View.cover_of_tiledL _ S512x768.size (by sl_kernel_rfl) y

/-- What the body leaves in this buffer at a middle key tile: its pieces read back. -/
def runMiddleMax (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) : Vec F S512x1 .f32 :=
  VMax.read (Elt F) (VMax.writes (Elt F) VMax.junk (runMiddle c i arg3 harg3 arg4 harg4 arg5 harg5 arg6 harg6 arg7 harg7 arg8 harg8 hc0 hc1 x0 x1 xm xs xa).1)
/-- The pieces tile the buffer, so they cover it. -/
theorem runMiddleMax_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runMiddle c i arg3 harg3 arg4 harg4 arg5 harg5 arg6 harg6 arg7 harg7 arg8 harg8 hc0 hc1 x0 x1 xm xs xa).1, y ∈ pc.1.set :=
  View.cover_of_tiledL _ S512x1.size (by sl_kernel_rfl) y

/-- What the body leaves in this buffer at a middle key tile: its pieces read back. -/
def runMiddleSum (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) : Vec F S512x1 .f32 :=
  VSum.read (Elt F) (VSum.writes (Elt F) VSum.junk (runMiddle c i arg3 harg3 arg4 harg4 arg5 harg5 arg6 harg6 arg7 harg7 arg8 harg8 hc0 hc1 x0 x1 xm xs xa).2.1)
/-- The pieces tile the buffer, so they cover it. -/
theorem runMiddleSum_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runMiddle c i arg3 harg3 arg4 harg4 arg5 harg5 arg6 harg6 arg7 harg7 arg8 harg8 hc0 hc1 x0 x1 xm xs xa).2.1, y ∈ pc.1.set :=
  View.cover_of_tiledL _ S512x1.size (by sl_kernel_rfl) y

/-- What the body leaves in this buffer at a middle key tile: its pieces read back. -/
def runMiddleAcc (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) : Vec F S512x768 .f32 :=
  VAcc.read (Elt F) (VAcc.writes (Elt F) VAcc.junk (runMiddle c i arg3 harg3 arg4 harg4 arg5 harg5 arg6 harg6 arg7 harg7 arg8 harg8 hc0 hc1 x0 x1 xm xs xa).2.2.1)
/-- The pieces tile the buffer, so they cover it. -/
theorem runMiddleAcc_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) (y : S512x768.Idx) :
    ∃ pc ∈ (runMiddle c i arg3 harg3 arg4 harg4 arg5 harg5 arg6 harg6 arg7 harg7 arg8 harg8 hc0 hc1 x0 x1 xm xs xa).2.2.1, y ∈ pc.1.set :=
  View.cover_of_tiledL _ S512x768.size (by sl_kernel_rfl) y

/-- What the body leaves in this buffer at the last key tile: its pieces read back. -/
def runLastOut (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S1x512x768 .f32 :=
  VOut.read (Elt F) (VOut.writes (Elt F) VOut.junk (runLast c i arg3 harg3 arg4 harg4 arg5 harg5 arg6 harg6 arg7 harg7 arg8 harg8 hc0 hc1 x0 x1 xm xs xa).1)
/-- The pieces tile the buffer, so they cover it. -/
theorem runLastOut_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S1x512x768.Idx) :
    ∃ pc ∈ (runLast c i arg3 harg3 arg4 harg4 arg5 harg5 arg6 harg6 arg7 harg7 arg8 harg8 hc0 hc1 x0 x1 xm xs xa).1, y ∈ pc.1.set :=
  View.cover_of_tiledL _ S1x512x768.size (by sl_kernel_rfl) y

/-- What the body leaves in this buffer at the last key tile: its pieces read back. -/
def runLastMax (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S512x1 .f32 :=
  VMax.read (Elt F) (VMax.writes (Elt F) VMax.junk (runLast c i arg3 harg3 arg4 harg4 arg5 harg5 arg6 harg6 arg7 harg7 arg8 harg8 hc0 hc1 x0 x1 xm xs xa).2.1)
/-- The pieces tile the buffer, so they cover it. -/
theorem runLastMax_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runLast c i arg3 harg3 arg4 harg4 arg5 harg5 arg6 harg6 arg7 harg7 arg8 harg8 hc0 hc1 x0 x1 xm xs xa).2.1, y ∈ pc.1.set :=
  View.cover_of_tiledL _ S512x1.size (by sl_kernel_rfl) y

/-- What the body leaves in this buffer at the last key tile: its pieces read back. -/
def runLastSum (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S512x1 .f32 :=
  VSum.read (Elt F) (VSum.writes (Elt F) VSum.junk (runLast c i arg3 harg3 arg4 harg4 arg5 harg5 arg6 harg6 arg7 harg7 arg8 harg8 hc0 hc1 x0 x1 xm xs xa).2.2.1)
/-- The pieces tile the buffer, so they cover it. -/
theorem runLastSum_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S512x1.Idx) :
    ∃ pc ∈ (runLast c i arg3 harg3 arg4 harg4 arg5 harg5 arg6 harg6 arg7 harg7 arg8 harg8 hc0 hc1 x0 x1 xm xs xa).2.2.1, y ∈ pc.1.set :=
  View.cover_of_tiledL _ S512x1.size (by sl_kernel_rfl) y

/-- What the body leaves in this buffer at the last key tile: its pieces read back. -/
def runLastAcc (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) : Vec F S512x768 .f32 :=
  VAcc.read (Elt F) (VAcc.writes (Elt F) VAcc.junk (runLast c i arg3 harg3 arg4 harg4 arg5 harg5 arg6 harg6 arg7 harg7 arg8 harg8 hc0 hc1 x0 x1 xm xs xa).2.2.2.1)
/-- The pieces tile the buffer, so they cover it. -/
theorem runLastAcc_cover (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) (y : S512x768.Idx) :
    ∃ pc ∈ (runLast c i arg3 harg3 arg4 harg4 arg5 harg5 arg6 harg6 arg7 harg7 arg8 harg8 hc0 hc1 x0 x1 xm xs xa).2.2.2.1, y ∈ pc.1.set :=
  View.cover_of_tiledL _ S512x768.size (by sl_kernel_rfl) y

/-! ## The state after each point -/

/-- After a first key tile `t`. (The output tile is idle there: its component is a placeholder nothing consults.) -/
def firstSt (c : Dev nD) (t : Fin cfg0.N) (hc0 : condFirst (grid0.coords t)) (hc1 : ¬condLast (grid0.coords t)) : St F :=
  (VOut.read (Elt F) VOut.junk,
   runFirstMax c (grid0.coords t) (msq t) (hsq t) (msk t) (hsk t) (mso t) (hso t) scMax (Memref.isWhole_whole _) scSum (Memref.isWhole_whole _) scAcc (Memref.isWhole_whole _) hc0 hc1 (iblk m c 0 t) (iblk m c 1 t),
   runFirstSum c (grid0.coords t) (msq t) (hsq t) (msk t) (hsk t) (mso t) (hso t) scMax (Memref.isWhole_whole _) scSum (Memref.isWhole_whole _) scAcc (Memref.isWhole_whole _) hc0 hc1 (iblk m c 0 t) (iblk m c 1 t),
   runFirstAcc c (grid0.coords t) (msq t) (hsq t) (msk t) (hsk t) (mso t) (hso t) scMax (Memref.isWhole_whole _) scSum (Memref.isWhole_whole _) scAcc (Memref.isWhole_whole _) hc0 hc1 (iblk m c 0 t) (iblk m c 1 t))

/-- After a middle key tile `t`, from the state `p` the point before left. -/
def middleSt (c : Dev nD) (t : Fin cfg0.N) (hc0 : ¬condFirst (grid0.coords t)) (hc1 : ¬condLast (grid0.coords t)) (p : St F) : St F :=
  (VOut.read (Elt F) VOut.junk,
   runMiddleMax c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runMiddleSum c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runMiddleAcc c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2)

/-- After the last key tile `t`, from the state `p` the point before left. -/
def lastSt (c : Dev nD) (t : Fin cfg0.N) (hc0 : ¬condFirst (grid0.coords t)) (hc1 : condLast (grid0.coords t)) (p : St F) : St F :=
  (runLastOut c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runLastMax c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runLastSum c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2,
   runLastAcc c (grid0.coords t) (msq t) (hsq t) (msk t) (hsk t) (mso t) (hso t) scMax (Memref.isWhole_whole _) scSum (Memref.isWhole_whole _) scAcc (Memref.isWhole_whole _) hc0 hc1 (iblk m c 0 t) (iblk m c 1 t) p.2.1 p.2.2.1 p.2.2.2)

/-- The state after the body at point number `n`. -/
def stateAt (c : Dev nD) : (n : ℕ) → n < cfg0.N → St F
  | 0, hn => firstSt m c ⟨0, hn⟩ ((hcondFirst ⟨0, hn⟩).mpr (Nat.zero_mod _)) (fun h => (fun h => by (try dsimp only at h); omega) ((hcondLast ⟨0, hn⟩).mp h))
  | n + 1, hn =>
    if h0 : (n + 1) % 4 = 0 then
      firstSt m c ⟨n + 1, hn⟩ ((hcondFirst ⟨n + 1, hn⟩).mpr h0) (fun h => (fun h => by (try dsimp only at h); omega) ((hcondLast ⟨n + 1, hn⟩).mp h))
    else if h1 : (n + 1) % 4 = 3 then
      lastSt m c ⟨n + 1, hn⟩ (fun h => h0 ((hcondFirst ⟨n + 1, hn⟩).mp h)) ((hcondLast ⟨n + 1, hn⟩).mpr h1) (stateAt c n (Nat.lt_of_succ_lt hn))
    else
      middleSt m c ⟨n + 1, hn⟩ (fun h => h0 ((hcondFirst ⟨n + 1, hn⟩).mp h)) (fun h => h1 ((hcondLast ⟨n + 1, hn⟩).mp h)) (stateAt c n (Nat.lt_of_succ_lt hn))

theorem stateAt_first (c : Dev nD) (t : Fin cfg0.N) (h0 : t.val % 4 = 0) (hc0 : condFirst (grid0.coords t)) (hc1 : ¬condLast (grid0.coords t)) :
    stateAt m c t.val t.isLt = firstSt m c t hc0 hc1 := by
  obtain ⟨n, hn⟩ := t
  cases n with
  | zero => exact rfl
  | succ n => exact (dif_pos h0).trans rfl

theorem stateAt_middle (c : Dev nD) (t : Fin cfg0.N) (h0 : ¬t.val % 4 = 0) (h1 : ¬t.val % 4 = 3) (hc0 : ¬condFirst (grid0.coords t)) (hc1 : ¬condLast (grid0.coords t)) :
    stateAt m c t.val t.isLt = middleSt m c t hc0 hc1 (stateAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg0.N) (h0 : ¬t.val % 4 = 0) (h1 : t.val % 4 = 3) (hc0 : ¬condFirst (grid0.coords t)) (hc1 : condLast (grid0.coords t)) :
    stateAt m c t.val t.isLt = lastSt m c t hc0 hc1 (stateAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before point number `n`: at the region's entry the scratch buffers at anything; afterwards each at what the point
    before left in it. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare (stateAt m c n hn).2.1 ∗ owns (c : Thread nD τ) scSum fullShare (stateAt m c n hn).2.2.1
      ∗ owns (c : Thread nD τ) scAcc fullShare (stateAt m c n hn).2.2.2)

theorem Phi_succ (c : Dev nD) (n : ℕ) (hn : n < cfg0.N) :
    Phi m c (n + 1) hn = iprop(owns (c : Thread nD τ) scMax fullShare (stateAt m c n hn).2.1 ∗ owns (c : Thread nD τ) scSum fullShare (stateAt m c n hn).2.2.1
      ∗ owns (c : Thread nD τ) scAcc fullShare (stateAt m c n hn).2.2.2) := rfl

theorem Phi_pos (c : Dev nD) (n : ℕ) (h : n ≤ cfg0.N) (hz : n ≠ 0) :
    Phi m c n h = iprop(owns (c : Thread nD τ) scMax fullShare (stateAt m c (n - 1) (by omega)).2.1 ∗ owns (c : Thread nD τ) scSum fullShare (stateAt m c (n - 1) (by omega)).2.2.1
      ∗ owns (c : Thread nD τ) scAcc fullShare (stateAt m c (n - 1) (by omega)).2.2.2) := by
  cases n with
  | zero => exact absurd rfl hz
  | succ n => rfl

/-- At any point the invariant holds the three scratch buffers at some contents. -/
theorem Phi_some (c : Dev nD) (n : ℕ) (h : n ≤ cfg0.N) :
    Phi m c n h ⊢ iprop((∃ d, owns (c : Thread nD τ) scMax fullShare d) ∗ (∃ d, owns (c : Thread nD τ) scSum fullShare d) ∗ (∃ d, owns (c : Thread nD τ) scAcc fullShare d)) := by
  cases n with
  | zero => exact Entails.of_eq (scratch_eq c)
  | succ n =>
    rw [Phi_succ]
    iintro ⟨HM, HS, HA⟩
    isplitl [HM]; · iexists _; iexact HM
    isplitl [HS]; · iexists _; iexact HS
    iexists _; iexact HA

end Cert.KernelIdeal.Flash

end
-- ==== Proof.FlashFrame.lean ====
/-
  The region's frame.  The proof data: both input tiles keep their blocks, the output tile holds the last key tile's
  quotient, the scratch buffers are carried in the invariant.  The body obligation is the three runs, chosen by the
  point's number modulo four.  The launch: the query and the key tiles are two windows on ONE array (the concatenation
  in its narrow format), which the region's entry splits between them, half a share each; nothing else is special.
-/
import proofs.«157192_j51256139710853_2_alg».proof.Proof.FlashState

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body each input tile at its block and the output tile at the
    state's first component; the invariant `Phi`; the shared input array split between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stateAt m c t.val t.isLt).1
  Φ t := Phi m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_o (c : Dev nD) (t : Fin cfg0.N) : (dats m 0 c).after 2 t = (stateAt m c t.val t.isLt).1 := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d

theorem leaves_q (c : Dev nD) (t : Fin cfg0.N) :
    (dats m 0 c).leavesExact 0 t = owns (c : Thread nD τ) (msq t) fullShare (iblk m c 0 t) := by
  rw [show (dats m 0 c).leavesExact 0 t = owns (c : Thread nD τ) (msq t) fullShare ((dats m 0 c).after 0 t) from rfl, after_q]
theorem leaves_k (c : Dev nD) (t : Fin cfg0.N) :
    (dats m 0 c).leavesExact 1 t = owns (c : Thread nD τ) (msk t) fullShare (iblk m c 1 t) := by
  rw [show (dats m 0 c).leavesExact 1 t = owns (c : Thread nD τ) (msk t) fullShare ((dats m 0 c).after 1 t) from rfl, after_k]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msq t) fullShare ((dats m 0 c).before 0 t d))
    ∗ (∃ d, owns (c : Thread nD τ) (msk t) fullShare ((dats m 0 c).before 1 t d))
    ∗ (∃ d, owns (c : Thread nD τ) (mso t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
/-- At a first key tile. -/
theorem body_first (c : Dev nD) (t : Fin cfg0.N) (h0 : t.val % 4 = 0) :
    bodyPre m c t ⊢ wp frame (wpE (defs₀ (F := F)) Variants.none c none) Set.univ (bodyAt0 t) (fun _ => bodyPost m c t) := by
  have hc0 : condFirst (grid0.coords t) := (hcondFirst t).mpr h0
  have hc1 : ¬condLast (grid0.coords t) := fun h => (fun h => by omega) ((hcondLast t).mp h)
  unfold bodyPre bodyPost bodyAt0
  simp only [before_q, before_k]
  rw [show (dats m 0 c).owesAt () t.succ = (dats m 0 c).owesAt () t.castSucc from rfl]
  rw [show (dats m 0 c).Φ t.succ = Phi m c (t.val + 1) t.isLt from rfl, Phi_succ]
  rw [leaves_q, leaves_k, Dat.leavesExact_idle (dats m 0 c) 2 t (idleAt_out t hc1) (noFlush_out t hc1)]
  rw [stateAt_first m c t h0 hc0 hc1]
  unfold firstSt runFirstMax runFirstSum runFirstAcc; (try dsimp only)
  rw [Phi_castSucc m c t]
  iintro ⟨HΦ, Ho, ⟨%d0, H0⟩, ⟨%d1, H1⟩, ⟨%d2, H2⟩⟩
  ihave ⟨HM, HS, HA⟩ := (Phi_some m c t.val (Nat.le_of_lt t.isLt)) $$ HΦ
  iapply ((runFirst c (grid0.coords t) _ _ _ _ _ _ _ _ _ _ _ _ hc0 hc1 (iblk m c 0 t) (iblk m c 1 t)).2.2.2 _ Set.univ _)
  isplitl [H0]; · iexact H0
  isplitl [H1]; · iexact H1
  isplitl [H2]; · iexact H2
  isplitl [HM]; · iexact HM
  isplitl [HS]; · iexact HS
  isplitl [HA]; · iexact HA
  iintro ⟨H0, H1, H2, ⟨%e6, H6⟩, ⟨%e7, H7⟩, ⟨%e8, H8⟩⟩
  isplitl [H6 H7 H8]
  · isplitl [H6]
    · unfold owns; iexists _; isplitr
      swap; · iexact H6
      ipureintro; exact View.read_writes_of_cover _ _ _ _ _ (runFirstMax_cover c _ _ _ _ _ _ _ _ _ _ _ _ _ _ _ _ _)
    isplitl [H7]
    · unfold owns; iexists _; isplitr
      swap; · iexact H7
      ipureintro; exact View.read_writes_of_cover _ _ _ _ _ (runFirstSum_cover c _ _ _ _ _ _ _ _ _ _ _ _ _ _ _ _ _)
    · unfold owns; iexists _; isplitr
      swap; · iexact H8
      ipureintro; exact View.read_writes_of_cover _ _ _ _ _ (runFirstAcc_cover c _ _ _ _ _ _ _ _ _ _ _ _ _ _ _ _ _)
  isplitl [Ho]; · iexact Ho
  isplitl [H0]; · iexact H0
  isplitl [H1]; · iexact H1
  iexists _; iexact H2

set_option maxHeartbeats 4000000 in
/-- At a middle key tile. -/
theorem body_middle (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  have hc0 : ¬condFirst (grid0.coords t) := fun h => h0 ((hcondFirst t).mp h)
  have hc1 : ¬condLast (grid0.coords t) := fun h => h1 ((hcondLast t).mp h)
  have hz : t.val ≠ 0 := fun h => h0 (by rw [h])
  unfold bodyPre bodyPost bodyAt0
  simp only [before_q, before_k]
  rw [show (dats m 0 c).owesAt () t.succ = (dats m 0 c).owesAt () t.castSucc from rfl]
  rw [show (dats m 0 c).Φ t.succ = Phi m c (t.val + 1) t.isLt from rfl, Phi_succ]
  rw [leaves_q, leaves_k, Dat.leavesExact_idle (dats m 0 c) 2 t (idleAt_out t hc1) (noFlush_out t hc1)]
  rw [stateAt_middle m c t h0 h1 hc0 hc1]
  unfold middleSt runMiddleMax runMiddleSum runMiddleAcc; (try dsimp only)
  rw [Phi_castSucc m c t, Phi_pos m c _ _ hz]
  iintro ⟨⟨HM, HS, HA⟩, Ho, ⟨%d0, H0⟩, ⟨%d1, H1⟩, ⟨%d2, H2⟩⟩
  iapply ((runMiddle c (grid0.coords t) _ _ _ _ _ _ _ _ _ _ _ _ hc0 hc1 (iblk m c 0 t) (iblk m c 1 t) _ _ _).2.2.2 _ Set.univ _)
  isplitl [H0]; · iexact H0
  isplitl [H1]; · iexact H1
  isplitl [H2]; · iexact H2
  isplitl [HM]; · iexact HM
  isplitl [HS]; · iexact HS
  isplitl [HA]; · iexact HA
  iintro ⟨H0, H1, H2, ⟨%e6, H6⟩, ⟨%e7, H7⟩, ⟨%e8, H8⟩⟩
  isplitl [H6 H7 H8]
  · isplitl [H6]
    · unfold owns; iexists _; isplitr
      swap; · iexact H6
      ipureintro; exact View.read_writes_of_cover _ _ _ _ _ (runMiddleMax_cover c _ _ _ _ _ _ _ _ _ _ _ _ _ _ _ _ _ _ _ _)
    isplitl [H7]
    · unfold owns; iexists _; isplitr
      swap; · iexact H7
      ipureintro; exact View.read_writes_of_cover _ _ _ _ _ (runMiddleSum_cover c _ _ _ _ _ _ _ _ _ _ _ _ _ _ _ _ _ _ _ _)
    · unfold owns; iexists _; isplitr
      swap; · iexact H8
      ipureintro; exact View.read_writes_of_cover _ _ _ _ _ (runMiddleAcc_cover c _ _ _ _ _ _ _ _ _ _ _ _ _ _ _ _ _ _ _ _)
  isplitl [Ho]; · iexact Ho
  isplitl [H0]; · iexact H0
  isplitl [H1]; · iexact H1
  iexists _; iexact H2

set_option maxHeartbeats 4000000 in
/-- At the last key tile. -/
theorem body_last (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by
  have hc0 : ¬condFirst (grid0.coords t) := fun h => h0 ((hcondFirst t).mp h)
  have hc1 : condLast (grid0.coords t) := (hcondLast t).mpr h1
  have hz : t.val ≠ 0 := fun h => h0 (by rw [h])
  unfold bodyPre bodyPost bodyAt0
  simp only [before_q, before_k]
  rw [show (dats m 0 c).owesAt () t.succ = (dats m 0 c).owesAt () t.castSucc from rfl]
  rw [show (dats m 0 c).Φ t.succ = Phi m c (t.val + 1) t.isLt from rfl, Phi_succ]
  rw [leaves_q, leaves_k]
  rw [show (dats m 0 c).leavesExact 2 t = owns (c : Thread nD τ) (mso t) fullShare ((dats m 0 c).after 2 t) from by
    unfold Dat.leavesExact; rw [liveAt_out t hc1], after_o]
  rw [stateAt_last m c t h0 h1 hc0 hc1]
  unfold lastSt runLastOut runLastMax runLastSum runLastAcc; (try dsimp only)
  rw [Phi_castSucc m c t, Phi_pos m c _ _ hz]
  iintro ⟨⟨HM, HS, HA⟩, Ho, ⟨%d0, H0⟩, ⟨%d1, H1⟩, ⟨%d2, H2⟩⟩
  iapply ((runLast c (grid0.coords t) _ _ _ _ _ _ _ _ _ _ _ _ hc0 hc1 (iblk m c 0 t) (iblk m c 1 t) _ _ _).2.2.2.2 Set.univ _)
  isplitl [H0]; · iexact H0
  isplitl [H1]; · iexact H1
  isplitl [H2]; · iexists _; iexact H2
  isplitl [HM]; · iexact HM
  isplitl [HS]; · iexact HS
  isplitl [HA]; · iexact HA
  iintro ⟨H0, H1, ⟨%e5, H5⟩, ⟨%e6, H6⟩, ⟨%e7, H7⟩, ⟨%e8, H8⟩⟩
  isplitl [H6 H7 H8]
  · isplitl [H6]
    · unfold owns; iexists _; isplitr
      swap; · iexact H6
      ipureintro; exact View.read_writes_of_cover _ _ _ _ _ (runLastMax_cover c _ _ _ _ _ _ _ _ _ _ _ _ _ _ _ _ _ _ _ _)
    isplitl [H7]
    · unfold owns; iexists _; isplitr
      swap; · iexact H7
      ipureintro; exact View.read_writes_of_cover _ _ _ _ _ (runLastSum_cover c _ _ _ _ _ _ _ _ _ _ _ _ _ _ _ _ _ _ _ _)
    · unfold owns; iexists _; isplitr
      swap; · iexact H8
      ipureintro; exact View.read_writes_of_cover _ _ _ _ _ (runLastAcc_cover c _ _ _ _ _ _ _ _ _ _ _ _ _ _ _ _ _ _ _ _)
  isplitl [Ho]; · iexact Ho
  isplitl [H0]; · iexact H0
  isplitl [H1]; · iexact H1
  unfold owns; iexists _; isplitr
  swap; · iexact H5
  ipureintro; exact View.read_writes_of_cover _ _ _ _ _ (runLastOut_cover c _ _ _ _ _ _ _ _ _ _ _ _ _ _ _ _ _ _ _ _)

/-- The body obligation at every point: the point's number modulo four says which run applies. -/
theorem body_obligation (c : Dev nD) : BodyObligation (dats (F := F) m 0 c) (defs₀ (F := F)) Variants.none () Set.univ := fun t => by
  rw [bigSep_W0, bigSep_W0]
  by_cases h0 : t.val % 4 = 0
  · exact body_first m c t h0
  · by_cases h1 : t.val % 4 = 3
    · exact body_last m c t h0 h1
    · exact body_middle m c t h0 h1

end Cert.KernelIdeal.Flash

end
-- ==== Proof.FlashBlocks.lean ====
/-
  Where the tiles sit in the arrays.  The grid's point number n is (batch, query tile, key tile) = (n / 16, n / 4 mod 4,
  n mod 4); the query tile's row r is row (n / 4 mod 4)·512 + r of the batch, the key tile's row k is row (n mod 4)·512 + k.
-/
import proofs.«157192_j51256139710853_2_alg».proof.Proof.FlashFrame
import Idealize.ShloMosaic.Lib.ValueIdx
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The array both input windows read: the concatenation in its narrow format, as the region finds it. -/
abbrev comb (c : Dev nD) : S8x2048x768.Idx → Elt F .bf16 := V m c main_v1

theorem N128 : cfg0.N = 128 := N_0

/-- The windows' block indices from the point's number: batch = n / 16, query tile = n / 4 mod 4, key tile = n mod 4. -/
theorem index_q : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
theorem index_k : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)
theorem index_o : ∀ t : Fin cfg0.N, win0_2.index t 0 = t.val / 16 ∧ win0_2.index t 1 = t.val / 4 % 4 ∧ win0_2.index t 2 = 0 :=
  (by decide +kernel : ∀ t : Fin grid0.N, win0_2.index t 0 = t.val / 16 ∧ win0_2.index t 1 = t.val / 4 % 4 ∧ win0_2.index t 2 = 0)

/-- The batch of point `t`, and the array rows of its query tile's row `r` and of its key tile's row `k`. -/
def batchOf (t : Fin cfg0.N) : Fin 8 := ⟨t.val / 16, by have := lt_of_lt_of_eq t.isLt N128; omega⟩
def qRow (t : Fin cfg0.N) (r : Fin 512) : Fin 2048 := ⟨t.val / 4 % 4 * 512 + r.val, by have := r.isLt; omega⟩
def kRow (j : Fin 4) (k : Fin 512) : Fin 2048 := ⟨j.val * 512 + k.val, by have := j.isLt; have := k.isLt; omega⟩
def keyTile (t : Fin cfg0.N) : Fin 4 := ⟨t.val % 4, Nat.mod_lt _ (by decide)⟩

/-- Row `r`, column `d` of the query tile at point `t` is the array's entry at the tile's row. -/
theorem iblk_q_apply (c : Dev nD) (t : Fin cfg0.N) (r : Fin 512) (d : Fin 768) :
    (iblk m c 0 t : Vec F S1x512x768 .bf16) (ix3 0 r d) = comb m c (ix3 (batchOf t) (qRow t r) d) := by
  obtain ⟨h0, h1, h2⟩ := index_q t
  unfold iblk
  rw [View.read_apply]
  show V m c main_v1 _ = V m c main_v1 _
  congr 1
  funext a
  apply Fin.ext
  match a with
  | ⟨0, _⟩ => show win0_0.index t 0 * 1 + 1 * 0 = t.val / 16; rw [h0]; omega
  | ⟨1, _⟩ => show win0_0.index t 1 * 512 + 1 * r.val = t.val / 4 % 4 * 512 + r.val; rw [h1]; omega
  | ⟨2, _⟩ => show win0_0.index t 2 * 768 + 1 * d.val = d.val; rw [h2]; omega

/-- Row `k`, column `d` of the key tile at point `t` is the array's entry at the tile's row. -/
theorem iblk_k_apply (c : Dev nD) (t : Fin cfg0.N) (k : Fin 512) (d : Fin 768) :
    (iblk m c 1 t : Vec F S1x512x768 .bf16) (ix3 0 k d) = comb m c (ix3 (batchOf t) (kRow (keyTile t) k) d) := by
  obtain ⟨h0, h1, h2⟩ := index_k t
  unfold iblk
  rw [View.read_apply]
  show V m c main_v1 _ = V m c main_v1 _
  congr 1
  funext a
  apply Fin.ext
  match a with
  | ⟨0, _⟩ => show win0_1.index t 0 * 1 + 1 * 0 = t.val / 16; rw [h0]; omega
  | ⟨1, _⟩ => show win0_1.index t 1 * 512 + 1 * k.val = t.val % 4 * 512 + k.val; rw [h1]; omega
  | ⟨2, _⟩ => show win0_1.index t 2 * 768 + 1 * d.val = d.val; rw [h2]; omega

end Cert.KernelIdeal.Flash

end
-- ==== Proof.FlashPieces.lean ====
/-
  What each run leaves, as the body's arithmetic of what it loaded.  Every store of the body covers its whole buffer,
  so a buffer ends at its last store's value, and a load after a store reads that store's value.  Writing
  `newMax`, `newSum`, `newAcc` for the three updates of one key tile (from the query tile, the key tile and the old
  maximum, sum and weighted sum), a first key tile applies them to the reset values, a later one to what the point
  before left, and the last one also stores `newAcc / newSum` into the output tile.
-/
import proofs.«157192_j51256139710853_2_alg».proof.Proof.FlashState
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The raised maximum: the old one against the key tile's row maxima. -/
abbrev newMax (x0 x1 : Vec F S1x512x768 .bf16) (xm : Vec F S512x1 .f32) : Vec F S512x1 .f32 := k0_pay2 (k0_pay9 x0 x1 xm)
/-- The rescaled sum of weights plus the key tile's. -/
abbrev newSum (x0 x1 : Vec F S1x512x768 .bf16) (xm xs : Vec F S512x1 .f32) : Vec F S512x1 .f32 := k0_pay12 x0 x1 xm xm xs
/-- The rescaled weighted sum plus the key tile's. -/
abbrev newAcc (x0 x1 : Vec F S1x512x768 .bf16) (xm : Vec F S512x1 .f32) (xa : Vec F S512x768 .f32) : Vec F S512x768 .f32 := k0_pay1 (k0_pay13 x0 x1 xm xm xa)

/-- At a first key tile the maximum is raised from the reset value. -/
theorem firstMax_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) :
    runFirstMax c i arg3 harg3 arg4 harg4 arg5 harg5 arg6 harg6 arg7 harg7 arg8 harg8 hc0 hc1 x0 x1 = newMax x0 x1 k0_pay4 := by
  unfold runFirstMax
  rw [View.read_writes_eq_canon _ _ _ (runFirstMax_cover c i arg3 harg3 arg4 harg4 arg5 harg5 arg6 harg6 arg7 harg7 arg8 harg8 hc0 hc1 x0 x1)]
  unfold runFirst
  dsimp only
  sl_unfold_words
  rw [View.canon_cons_unit_zero (S := S512x1) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At a first key tile the sum starts from the reset values. -/
theorem firstSum_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) :
    runFirstSum c i arg3 harg3 arg4 harg4 arg5 harg5 arg6 harg6 arg7 harg7 arg8 harg8 hc0 hc1 x0 x1 = newSum x0 x1 k0_pay4 k0_pay5 := by
  unfold runFirstSum
  rw [View.read_writes_eq_canon _ _ _ (runFirstSum_cover c i arg3 harg3 arg4 harg4 arg5 harg5 arg6 harg6 arg7 harg7 arg8 harg8 hc0 hc1 x0 x1)]
  unfold runFirst
  dsimp only
  sl_unfold_words
  rw [View.canon_cons_unit_zero (S := S512x1) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At a first key tile the weighted sum starts from the reset values. -/
theorem firstAcc_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : condFirst i) (hc1 : ¬condLast i) (x0 : Vec F S1x512x768 .bf16) (x1 : Vec F S1x512x768 .bf16) :
    runFirstAcc c i arg3 harg3 arg4 harg4 arg5 harg5 arg6 harg6 arg7 harg7 arg8 harg8 hc0 hc1 x0 x1 = newAcc x0 x1 k0_pay4 k0_pay6 := by
  unfold runFirstAcc
  rw [View.read_writes_eq_canon _ _ _ (runFirstAcc_cover c i arg3 harg3 arg4 harg4 arg5 harg5 arg6 harg6 arg7 harg7 arg8 harg8 hc0 hc1 x0 x1)]
  unfold runFirst
  dsimp only
  sl_unfold_words
  rw [View.canon_cons_unit_zero (S := S512x768) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At a middle key tile the maximum is raised from the carried one. -/
theorem middleMax_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) :
    runMiddleMax c i arg3 harg3 arg4 harg4 arg5 harg5 arg6 harg6 arg7 harg7 arg8 harg8 hc0 hc1 x0 x1 xm xs xa = newMax x0 x1 xm := by
  unfold runMiddleMax
  rw [View.read_writes_eq_canon _ _ _ (runMiddleMax_cover c i arg3 harg3 arg4 harg4 arg5 harg5 arg6 harg6 arg7 harg7 arg8 harg8 hc0 hc1 x0 x1 xm xs xa)]
  unfold runMiddle
  dsimp only
  sl_unfold_words
  rw [View.canon_cons_unit_zero (S := S512x1) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At a middle key tile the sum is updated from the carried values. -/
theorem middleSum_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) :
    runMiddleSum c i arg3 harg3 arg4 harg4 arg5 harg5 arg6 harg6 arg7 harg7 arg8 harg8 hc0 hc1 x0 x1 xm xs xa = newSum x0 x1 xm xs := by
  unfold runMiddleSum
  rw [View.read_writes_eq_canon _ _ _ (runMiddleSum_cover c i arg3 harg3 arg4 harg4 arg5 harg5 arg6 harg6 arg7 harg7 arg8 harg8 hc0 hc1 x0 x1 xm xs xa)]
  unfold runMiddle
  dsimp only
  sl_unfold_words
  rw [View.canon_cons_unit_zero (S := S512x1) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At a middle key tile the weighted sum is updated from the carried values. -/
theorem middleAcc_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : ¬condLast i) (x0 : Vec F S1x512x768 .bf16) (x1 : Vec F S1x512x768 .bf16) (xm : Vec F S512x1 .f32) (xs : Vec F S512x1 .f32) (xa : Vec F S512x768 .f32) :
    runMiddleAcc c i arg3 harg3 arg4 harg4 arg5 harg5 arg6 harg6 arg7 harg7 arg8 harg8 hc0 hc1 x0 x1 xm xs xa = newAcc x0 x1 xm xa := by
  unfold runMiddleAcc
  rw [View.read_writes_eq_canon _ _ _ (runMiddleAcc_cover c i arg3 harg3 arg4 harg4 arg5 harg5 arg6 harg6 arg7 harg7 arg8 harg8 hc0 hc1 x0 x1 xm xs xa)]
  unfold runMiddle
  dsimp only
  sl_unfold_words
  rw [View.canon_cons_unit_zero (S := S512x768) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At the last key tile the maximum is raised from the carried one. -/
theorem lastMax_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) :
    runLastMax c i arg3 harg3 arg4 harg4 arg5 harg5 arg6 harg6 arg7 harg7 arg8 harg8 hc0 hc1 x0 x1 xm xs xa = newMax x0 x1 xm := by
  unfold runLastMax
  rw [View.read_writes_eq_canon _ _ _ (runLastMax_cover c i arg3 harg3 arg4 harg4 arg5 harg5 arg6 harg6 arg7 harg7 arg8 harg8 hc0 hc1 x0 x1 xm xs xa)]
  unfold runLast
  dsimp only
  sl_unfold_words
  rw [View.canon_cons_unit_zero (S := S512x1) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At the last key tile the sum is updated from the carried values. -/
theorem lastSum_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) :
    runLastSum c i arg3 harg3 arg4 harg4 arg5 harg5 arg6 harg6 arg7 harg7 arg8 harg8 hc0 hc1 x0 x1 xm xs xa = newSum x0 x1 xm xs := by
  unfold runLastSum
  rw [View.read_writes_eq_canon _ _ _ (runLastSum_cover c i arg3 harg3 arg4 harg4 arg5 harg5 arg6 harg6 arg7 harg7 arg8 harg8 hc0 hc1 x0 x1 xm xs xa)]
  unfold runLast
  dsimp only
  sl_unfold_words
  rw [View.canon_cons_unit_zero (S := S512x1) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At the last key tile the weighted sum is updated from the carried values. -/
theorem lastAcc_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) :
    runLastAcc c i arg3 harg3 arg4 harg4 arg5 harg5 arg6 harg6 arg7 harg7 arg8 harg8 hc0 hc1 x0 x1 xm xs xa = newAcc x0 x1 xm xa := by
  unfold runLastAcc
  rw [View.read_writes_eq_canon _ _ _ (runLastAcc_cover c i arg3 harg3 arg4 harg4 arg5 harg5 arg6 harg6 arg7 harg7 arg8 harg8 hc0 hc1 x0 x1 xm xs xa)]
  unfold runLast
  dsimp only
  sl_unfold_words
  rw [View.canon_cons_unit_zero (S := S512x768) hz2]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

/-- At the last key tile the output tile is the updated weighted sum divided by the updated sum. -/
theorem lastOut_eq (c : Dev nD) (i : grid0.Coords) (arg3 : Memref sig .tc .vmem S1x512x768 .bf16) (harg3 : arg3.IsWhole) (arg4 : Memref sig .tc .vmem S1x512x768 .bf16) (harg4 : arg4.IsWhole) (arg5 : Memref sig .tc .vmem S1x512x768 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x768 .f32) (harg8 : arg8.IsWhole) (hc0 : ¬condFirst i) (hc1 : condLast i) (x0 : Vec F S1x512x768 .bf16) (x1 : Vec F S1x512x768 .bf16) (xm : Vec F S512x1 .f32) (xs : Vec F S512x1 .f32) (xa : Vec F S512x768 .f32) :
    runLastOut c i arg3 harg3 arg4 harg4 arg5 harg5 arg6 harg6 arg7 harg7 arg8 harg8 hc0 hc1 x0 x1 xm xs xa = k0_pay3 (newAcc x0 x1 xm xa) (newSum x0 x1 xm xs) := by
  unfold runLastOut
  rw [View.read_writes_eq_canon _ _ _ (runLastOut_cover c i arg3 harg3 arg4 harg4 arg5 harg5 arg6 harg6 arg7 harg7 arg8 harg8 hc0 hc1 x0 x1 xm xs xa)]
  unfold runLast
  dsimp only
  sl_unfold_words
  rw [View.canon_cons_unit_zero (S := S1x512x768) hz3]
  simp only [View.readCov_unit_zero (S := S512x1) _ hz2, View.readCov_unit_zero (S := S512x768) _ hz2, View.readAt_eq_ld,
    harg3.read_unread, harg4.read_unread, harg6.read_unread, harg7.read_unread, harg8.read_unread,
    View.ld_unit_zero (S := S1x512x768) hz3, View.ld_unit_zero (S := S512x1) hz2, View.ld_unit_zero (S := S512x768) hz2]

end Cert.KernelIdeal.Flash

end
-- ==== Proof.AttnSpec.lean ====
/-
  The specification both programs are compared with, one output entry at a time.

  For one query row and one output column, let `S i` be the score of the row against key `i` and `V i` the
  key's value in that column.  The reference computes the softmax-weighted sum in one pass (`refOut`): the row
  maximum `M`, the weights `exp (S i - M)`, their sum `L`, and `∑ i, (exp (S i - M) / L) * V i`.

  The kernel walks the keys in blocks (`kerState`): it carries the running maximum `m`, the running sum `l`
  of the weights taken against `m`, and the running weighted sum `acc`; at each block it raises the maximum,
  rescales `l` and `acc` by `exp (m_old - m_new)`, and adds the block's weights and weighted values; at the
  end it divides `acc` by `l` (`kerOut`).
-/
import Idealize.ShloMosaic.PureOps.Ideal
import Idealize.ShloMosaic.PureOps.Ideal.Laws

noncomputable section

namespace Cert.Attn

open Idealize.ShloMosaic

/-- The maximum of a finite family of extended reals, as a fold of `max` from `-∞`. -/
def rowMax {ι : Type} [Fintype ι] (S : ι → EReal) : EReal := Finset.univ.fold max ⊥ S

/-- The one-pass softmax-weighted sum: scores `S`, values `V`. -/
def refOut {ι : Type} [Fintype ι] (S V : ι → EReal) : EReal :=
  ∑ i, Ideal.div (Ideal.exp (S i - max ⊥ (rowMax S))) (0 + ∑ i', Ideal.exp (S i' - max ⊥ (rowMax S))) * V i

/-- One block of the blockwise pass: from the running `(m, l, acc)` to the next. -/
def step {n : ℕ} (st : EReal × EReal × EReal) (S V : Fin n → EReal) : EReal × EReal × EReal :=
  (max st.1 (rowMax S),
   Ideal.exp (st.1 - max st.1 (rowMax S)) * st.2.1 + ∑ k, Ideal.exp (S k - max st.1 (rowMax S)),
   Ideal.exp (st.1 - max st.1 (rowMax S)) * st.2.2 + ∑ k, Ideal.exp (S k - max st.1 (rowMax S)) * V k)

/-- The running `(m, l, acc)` after the first `j` blocks. -/
def kerState {nb n : ℕ} (S V : Fin nb → Fin n → EReal) : ℕ → EReal × EReal × EReal
  | 0 => (⊥, 0, 0)
  | j + 1 => if h : j < nb then step (kerState S V j) (S ⟨j, h⟩) (V ⟨j, h⟩) else kerState S V j

/-- The blockwise pass's result: `acc / l` after every block. -/
def kerOut {nb n : ℕ} (S V : Fin nb → Fin n → EReal) : EReal :=
  Ideal.div (kerState S V nb).2.2 (kerState S V nb).2.1

end Cert.Attn

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowCols.lean ====
/-
  A product of two rank-2 arrays with the left operand's SECOND axis against the right operand's FIRST axis,
  `[A, K] × [K, B] → [A, B]` — every row of the left operand against every column of the right one, as a plain
  `tpu.matmul` into the zero accumulator computes it —, read at `(i, c)` at the ideal values (floats are extended
  reals): the sum over `k` of `l (i, k) * r (k, c)`. Stated for any extents, with every index written by coordinates.
-/
import Idealize.ShloMosaic.PureOps.Ideal
import Idealize.ShloMosaic.PureOps.Ideal.Laws
import Idealize.ShloMosaic.Lib.ValueIdx

noncomputable section

open scoped BigOperators

namespace Idealize.ShloMosaic.RowCols

open Idealize.ShloMosaic Idealize.ShloMosaic.ValueIdx

/-- A rank-2 index whose coordinates have the values of `a` and `b` is `ix2 a b`. -/
theorem idx2_of_vals {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- The dimension numbers of `[A, K] × [K, B] → [A, B]`: the left operand's axis 1 contracted with the right
    operand's axis 0, no batch axis. -/
abbrev colsDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row. -/
theorem cols_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem cols_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a rows-against-columns product, re-indexed by the contracted coordinate: at `j = (i, c)`
    the left operand is read along its row `i`, the right one along its column `c`. -/
theorem colsDot_sum {A K B : Nat} (d : DotDims (⟨2, ![A, K]⟩ : Shape) ⟨2, ![K, B]⟩ ⟨2, ![A, B]⟩)
    (hd : ∃ wf, d = colsDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (colsDims wf) K rfl rfl).symm]
  refine Finset.sum_congr rfl fun k _ => ?_
  have hk := contrEquiv1_symm_val (colsDims wf) K rfl rfl k
  have el : (colsDims wf).lhsIdx j ((contrEquiv1 (colsDims wf) K rfl rfl).symm k) = ix2 (j 0) k :=
    idx2_of_vals _ _ _ (cols_lhs0 wf j _) (((colsDims wf).lhsIdx_val_of_single (cl := 1) rfl j _).trans hk)
  have er : (colsDims wf).rhsIdx j ((contrEquiv1 (colsDims wf) K rfl rfl).symm k) = ix2 k (j 1) :=
    idx2_of_vals _ _ _ (((colsDims wf).rhsIdx_val_of_single (cr := 0) rfl j _).trans hk) (cols_rhs1 wf j _)
  rw [el, er]
  rfl

/-- A `tpu.matmul` of rows against columns into the zero accumulator, read at `(i, c)`: the sum over `k` of
    `l (i, k) * r (k, c)`. -/
theorem matmul_zero_cols_apply {A K B : Nat} {φ₁ φ₂ : FTy} (d : DotDims (⟨2, ![A, K]⟩ : Shape) ⟨2, ![K, B]⟩ ⟨2, ![A, B]⟩)
    (hd : ∃ wf, d = colsDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact colsDot_sum d hd l r (ix2 i c)

end Idealize.ShloMosaic.RowCols

end
-- ==== Proof.PayloadReads.lean ====
/-
  The kernel body's arithmetic, read one entry at a time at the ideal values (every float an extended real,
  every operation exact, a change of format the identity).

  One step of blockwise softmax attention on a query tile `x0` and a key tile `x1`, both `[1, 512, 768]`:
  the scores `s = x0 · x1ᵀ`; the raised row maximum `max (old maximum) (row maximum of s)`; the rescaling factor
  `exp (old maximum - new maximum)`; the weights `exp (s - new maximum)`; the new running sum
  `factor · old sum + row sum of the weights`; the new accumulator `factor · old accumulator + weights · x1`;
  and at the end the quotient `accumulator / sum`.  Each theorem reads one of these arrays at an index written
  by coordinates.
-/
import proofs.«157192_j51256139710853_2_alg».proof.Proof.Gen.KernelIdeal.Skeleton
import proofs.«157192_j51256139710853_2_alg».proof.Proof.AttnSpec
import proofs.«157192_j51256139710853_2_alg».proof.Proof.LibColumns
import proofs.«157192_j51256139710853_2_alg».proof.Proof.LibRowCols
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Reads

open Idealize.ShloMosaic Idealize.ShloMosaic.ValueIdx Cert.KernelIdeal Cert.KernelIdeal.Gen

/-! ## The definitions the reads are stated with -/

/-- The score of query row r of the tile x0 against key row k of the tile x1. -/
def tileScore (x0 x1 : Vec Ideal S1x512x768 .bf16) (r k : Fin 512) : EReal :=
  ∑ d : Fin 768, x0 (ix3 0 r d) * x1 (ix3 0 k d)

/-- The raised maximum of row r. -/
def newMax (x0 x1 : Vec Ideal S1x512x768 .bf16) (xm : Vec Ideal S512x1 .f32) (r : Fin 512) : EReal :=
  max (xm (ix2 r 0)) (Cert.Attn.rowMax fun k : Fin 512 => tileScore x0 x1 r k)

/-! ## The identity casts and the reset values -/

theorem pay1_apply (v : FVec Ideal S512x768 .f32) (j : S512x768.Idx) : k0_pay1 (F := Ideal) v j = v j := by
  unfold k0_pay1
  exact congrFun (shapeCast_self v _) j

theorem pay2_apply (v : FVec Ideal S512x1 .f32) (j : S512x1.Idx) : k0_pay2 (F := Ideal) v j = v j := by
  unfold k0_pay2
  exact congrFun (shapeCast_self v _) j

/-- The word `0xFF800000` is `-∞`. -/
theorem ofBits_negInf_f32 : Ideal.ofBits .f32 0xFF800000#32 = ⊥ := by simp [Ideal.ofBits, Ideal.ieee]

theorem pay4_apply (r : Fin 512) : k0_pay4 (F := Ideal) (ix2 r 0) = ⊥ := by
  unfold k0_pay4
  refine (congrFun (shapeCast_self _ _) (ix2 r 0)).trans ?_
  exact ofBits_negInf_f32

theorem pay5_apply (r : Fin 512) : k0_pay5 (F := Ideal) (ix2 r 0) = 0 := by
  unfold k0_pay5
  refine (congrFun (shapeCast_self _ _) (ix2 r 0)).trans ?_
  exact Ideal.ofBits_zero_f32

theorem pay6_apply (r : Fin 512) (d : Fin 768) : k0_pay6 (F := Ideal) (ix2 r d) = 0 := by
  unfold k0_pay6
  refine (congrFun (shapeCast_self _ _) (ix2 r d)).trans ?_
  exact Ideal.ofBits_zero_f32

/-! ## The scores -/

/-- The first product, read at `(r, k)`: the score of query row `r` against key row `k`. -/
theorem pay8_apply (x0 x1 : Vec Ideal S1x512x768 .bf16) (r k : Fin 512) :
    k0_pay8 (F := Ideal) x0 x1 (ix2 r k) = tileScore x0 x1 r k := by
  unfold k0_pay8 k0_pay7 tileScore
  refine (RowCols.matmul_zero_cols_apply _ ⟨_, rfl⟩ none _ _ r k).trans ?_
  refine Finset.sum_congr rfl fun d _ => ?_
  exact congrArg₂ (· * ·) (shapeCast_1ab_ab_apply x0 _ r d)
    ((transpose_ix2_apply _ _ d k).trans (shapeCast_1ab_ab_apply x1 _ k d))

/-! ## The two lane reductions -/

/-- The index a reduction over the columns inserts: row `r`, column `k`. -/
theorem lift_row (h : S512x512.Reduces [1] S512) (r k : Fin 512) : h.lift (ix1 r) k = ix2 r k :=
  funext fun c => Fin.ext (by match c with | ⟨0, _⟩ => rfl | ⟨1, _⟩ => rfl)

/-- The maximum over the columns from `-∞`, read at row `r`. -/
theorem rowMax_apply (src : FVec Ideal S512x512 .f32) (h : S512x512.Reduces [1] S512) (hφ : FKind.Formats .f32)
    (hacc : (0xFF800000#32 : BitVec 32) = FKind.maximumf.neutral .f32 hφ) (r : Fin 512) :
    multiReduction (F := Ideal) .maximumf [1] S512 src 0xFF800000#32 h hφ hacc (ix1 r)
      = Cert.Attn.rowMax fun k : Fin 512 => src (ix2 r k) := by
  refine (Ideal.multiReduction_maximumf_single src 0xFF800000#32 h hφ hacc (ix1 r)).trans ?_
  unfold Cert.Attn.rowMax
  have e : (src ∘ h.lift (ix1 r)) = fun k : Fin 512 => src (ix2 r k) := funext fun k => congrArg src (lift_row h r k)
  rw [e]
  exact congrArg (fun b => Finset.fold max b (fun k : Fin 512 => src (ix2 r k)) Finset.univ) ofBits_negInf_f32

/-- The sum over the columns, read at row `r`. -/
theorem rowSum_apply (src : FVec Ideal S512x512 .f32) (h : S512x512.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ k : Fin 512, src (ix2 r k) := by
  refine (Ideal.multiReduction_add_single src 0x00000000#32 h hφ hacc (ix1 r)).trans ?_
  exact Finset.sum_congr rfl fun k _ => congrArg src (lift_row h r k)

/-! ## The raised maximum, the rescaling factor and the weights -/

theorem pay9_apply (x0 x1 : Vec Ideal S1x512x768 .bf16) (xm : Vec Ideal S512x1 .f32) (r : Fin 512) :
    k0_pay9 (F := Ideal) x0 x1 xm (ix2 r 0) = newMax x0 x1 xm r := by
  unfold k0_pay9 newMax
  refine congrArg (max (xm (ix2 r 0))) ?_
  refine (shapeCast_a_a1_apply _ _ r 0).trans ?_
  refine (rowMax_apply _ _ _ _ r).trans ?_
  exact congrArg Cert.Attn.rowMax (funext fun k => pay8_apply x0 x1 r k)

/-- The rescaling factor of row `r`: `exp (old maximum - raised maximum)`. -/
theorem pay10_apply (x0 x1 : Vec Ideal S1x512x768 .bf16) (xm xm' : Vec Ideal S512x1 .f32) (r : Fin 512) :
    k0_pay10 (F := Ideal) x0 x1 xm xm' (ix2 r 0) = Ideal.exp (xm' (ix2 r 0) - newMax x0 x1 xm r) := by
  unfold k0_pay10
  exact congrArg (fun t => Ideal.exp (xm' (ix2 r 0) - t)) (pay9_apply x0 x1 xm r)

/-- The weight of key row `k` in row `r`: `exp (score - raised maximum)`. -/
theorem pay11_apply (x0 x1 : Vec Ideal S1x512x768 .bf16) (xm : Vec Ideal S512x1 .f32) (r k : Fin 512) :
    k0_pay11 (F := Ideal) x0 x1 xm (ix2 r k) = Ideal.exp (tileScore x0 x1 r k - newMax x0 x1 xm r) := by
  unfold k0_pay11
  refine congrArg Ideal.exp ?_
  exact congrArg₂ (· - ·) (pay8_apply x0 x1 r k)
    ((broadcastTo_a1_ab_apply _ _ r k).trans (pay9_apply x0 x1 xm r))

/-! ## The new running sum and the new accumulator -/

theorem pay12_apply (x0 x1 : Vec Ideal S1x512x768 .bf16) (xm xs : Vec Ideal S512x1 .f32) (r : Fin 512) :
    k0_pay12 (F := Ideal) x0 x1 xm xm xs (ix2 r 0)
      = Ideal.exp (xm (ix2 r 0) - newMax x0 x1 xm r) * xs (ix2 r 0)
        + ∑ k : Fin 512, Ideal.exp (tileScore x0 x1 r k - newMax x0 x1 xm r) := by
  unfold k0_pay12
  refine (congrFun (shapeCast_self _ _) (ix2 r 0)).trans ?_
  refine congrArg₂ (· + ·) (congrArg (· * xs (ix2 r 0)) (pay10_apply x0 x1 xm xm r)) ?_
  refine (shapeCast_a_a1_apply _ _ r 0).trans ?_
  refine (rowSum_apply _ _ _ _ r).trans ?_
  exact Finset.sum_congr rfl fun k _ => pay11_apply x0 x1 xm r k

theorem pay13_apply (x0 x1 : Vec Ideal S1x512x768 .bf16) (xm : Vec Ideal S512x1 .f32) (xa : Vec Ideal S512x768 .f32)
    (r : Fin 512) (d : Fin 768) :
    k0_pay13 (F := Ideal) x0 x1 xm xm xa (ix2 r d)
      = Ideal.exp (xm (ix2 r 0) - newMax x0 x1 xm r) * xa (ix2 r d)
        + ∑ k : Fin 512, Ideal.exp (tileScore x0 x1 r k - newMax x0 x1 xm r) * x1 (ix3 0 k d) := by
  unfold k0_pay13 k0_pay7
  refine congrArg₂ (· + ·) ?_ ?_
  · exact congrArg (· * xa (ix2 r d)) ((broadcastTo_a1_ab_apply _ _ r d).trans (pay10_apply x0 x1 xm xm r))
  · refine (RowCols.matmul_zero_cols_apply _ ⟨_, rfl⟩ none _ _ r d).trans ?_
    refine Finset.sum_congr rfl fun k _ => ?_
    exact congrArg₂ (· * ·) (pay11_apply x0 x1 xm r k) (shapeCast_1ab_ab_apply x1 _ k d)

/-! ## The quotient -/

theorem pay3_apply (A : Vec Ideal S512x768 .f32) (L : Vec Ideal S512x1 .f32) (r : Fin 512) (d : Fin 768) :
    k0_pay3 (F := Ideal) A L (ix3 0 r d) = Ideal.div (A (ix2 r d)) (L (ix2 r 0)) := by
  unfold k0_pay3
  refine (shapeCast_ab_1ab_apply _ _ 0 r d).trans ?_
  exact congrArg (Ideal.div (A (ix2 r d))) (broadcastTo_a1_ab_apply L _ r d)

end Cert.KernelIdeal.Reads

end
-- ==== Proof.OnlineSoftmax.lean ====
/-
  The blockwise (online) softmax equals the one-pass softmax on real data.

  For real scores and values, the softmax-weighted sum does not depend on the shift used inside the
  exponentials: for any real `M`,
    (∑ i, exp (s i - M) * v i) / (∑ i, exp (s i - M))
  is the same number, because changing `M` to `M'` multiplies numerator and denominator by the same
  positive factor `exp (M' - M)`.  The one-pass formula is this quotient with `M` the row maximum.  The
  blockwise pass keeps, after `j ≥ 1` blocks, a real `m`, and `l`, `acc` equal to the denominator and the
  numerator over the first `j` blocks taken with shift `m`: raising `m` to `m'` rescales both by
  `exp (m - m')`, which is exactly the change of shift, and the new block's terms are added with shift
  `m'`.  After the last block the quotient `acc / l` is the shift-independent number.
-/
import proofs.«157192_j51256139710853_2_alg».proof.Proof.AttnSpec
import Mathlib.Data.EReal.Basic
import Mathlib.Data.EReal.Operations
import Mathlib.Data.EReal.Inv
import Mathlib.Analysis.SpecialFunctions.Exp
import Mathlib.Algebra.BigOperators.Fin
import Mathlib.Algebra.BigOperators.Field
import Mathlib.Data.Fintype.BigOperators

noncomputable section

namespace Cert.Attn

open Idealize.ShloMosaic

/-! ### Coercion of finite real sums -/

/-- The coercion `ℝ → EReal` commutes with finite sums. -/
theorem coe_finset_sum {α : Type} (t : Finset α) (f : α → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ### The row maximum -/

/-- The row maximum is unchanged by reindexing along a bijection. -/
theorem rowMax_equiv {ι κ : Type} [Fintype ι] [Fintype κ] (e : ι ≃ κ) (S : κ → EReal) :
    rowMax (fun i => S (e i)) = rowMax S := by
  unfold rowMax
  rw [← Finset.map_univ_equiv e, Finset.fold_map]
  rfl

/-- The row maximum of a nonempty finite family of reals is a real. -/
theorem rowMax_real {ι : Type} [Fintype ι] [Nonempty ι] (s : ι → ℝ) :
    ∃ R : ℝ, rowMax (fun i => (s i : EReal)) = (R : EReal) := by
  have h : rowMax (fun i => (s i : EReal)) = Finset.univ.sup (fun i => (s i : EReal)) := rfl
  obtain ⟨i, -, hi⟩ := Finset.exists_mem_eq_sup (Finset.univ : Finset ι) Finset.univ_nonempty
    (fun i => (s i : EReal))
  exact ⟨s i, h.trans hi⟩

/-! ### The one-pass formula -/

theorem refOut_equiv {ι κ : Type} [Fintype ι] [Fintype κ] (e : ι ≃ κ) (S V : κ → EReal) :
    refOut (fun i => S (e i)) (fun i => V (e i)) = refOut S V := by
  unfold refOut
  rw [rowMax_equiv e S,
    Equiv.sum_comp e (fun k => Ideal.exp (S k - max ⊥ (rowMax S)))]
  exact Equiv.sum_comp e (fun k =>
    Ideal.div (Ideal.exp (S k - max ⊥ (rowMax S)))
      (0 + ∑ i', Ideal.exp (S i' - max ⊥ (rowMax S))) * V k)

/-- Changing the shift multiplies a weighted sum of exponentials by a common factor. -/
theorem shift_sum {α : Type} (t : Finset α) (f w : α → ℝ) (M M' : ℝ) :
    Real.exp (M - M') * ∑ i ∈ t, Real.exp (f i - M) * w i = ∑ i ∈ t, Real.exp (f i - M') * w i := by
  rw [Finset.mul_sum]
  refine Finset.sum_congr rfl (fun i _ => ?_)
  rw [← mul_assoc, ← Real.exp_add]
  congr 2
  ring

/-- The same for the unweighted sum. -/
theorem shift_sum_one {α : Type} (t : Finset α) (f : α → ℝ) (M M' : ℝ) :
    Real.exp (M - M') * ∑ i ∈ t, Real.exp (f i - M) = ∑ i ∈ t, Real.exp (f i - M') := by
  rw [Finset.mul_sum]
  refine Finset.sum_congr rfl (fun i _ => ?_)
  rw [← Real.exp_add]
  congr 1
  ring

/-- The softmax-weighted sum does not depend on the shift. -/
theorem quot_shift {α : Type} (t : Finset α) (f w : α → ℝ) (M M' : ℝ) :
    (∑ i ∈ t, Real.exp (f i - M) * w i) / (∑ i ∈ t, Real.exp (f i - M))
      = (∑ i ∈ t, Real.exp (f i - M') * w i) / (∑ i ∈ t, Real.exp (f i - M')) := by
  rw [← shift_sum t f w M' M, ← shift_sum_one t f M' M]
  exact mul_div_mul_left _ _ (Real.exp_pos _).ne'

/-- A nonempty sum of exponentials is positive. -/
theorem sum_exp_pos {ι : Type} [Fintype ι] [Nonempty ι] (f : ι → ℝ) (M : ℝ) :
    0 < ∑ i, Real.exp (f i - M) :=
  Finset.sum_pos (fun i _ => Real.exp_pos _) Finset.univ_nonempty

/-- Dividing a real by a nonzero real, in the extended reals. -/
theorem div_coe_coe (a l : ℝ) (hl : l ≠ 0) :
    Ideal.div (a : EReal) (l : EReal) = ((a / l : ℝ) : EReal) := by
  rw [Ideal.div_coe hl, ← EReal.coe_mul, mul_one_div]

/-- On real data the one-pass formula is the quotient of the weighted sum by the plain sum of the
    exponentials, with any shift. -/
theorem refOut_real {ι : Type} [Fintype ι] [Nonempty ι] (s v : ι → ℝ) (M : ℝ) :
    refOut (fun i => (s i : EReal)) (fun i => (v i : EReal))
      = (((∑ i, Real.exp (s i - M) * v i) / (∑ i, Real.exp (s i - M)) : ℝ) : EReal) := by
  obtain ⟨R, hR⟩ := rowMax_real s
  have hL : (∑ i, Real.exp (s i - R)) ≠ 0 := (sum_exp_pos s R).ne'
  unfold refOut
  rw [hR, max_eq_right bot_le]
  have he : ∀ i, Ideal.exp ((s i : EReal) - (R : EReal)) = ((Real.exp (s i - R) : ℝ) : EReal) := by
    intro i
    rw [← EReal.coe_sub, Ideal.exp_coe]
  simp only [he]
  rw [zero_add, ← coe_finset_sum]
  have hterm : ∀ i, Ideal.div ((Real.exp (s i - R) : ℝ) : EReal)
        ((∑ i, Real.exp (s i - R) : ℝ) : EReal) * (v i : EReal)
      = ((Real.exp (s i - R) * v i / (∑ i, Real.exp (s i - R)) : ℝ) : EReal) := by
    intro i
    rw [div_coe_coe _ _ hL, ← EReal.coe_mul, div_mul_eq_mul_div]
  simp only [hterm]
  rw [← coe_finset_sum, ← Finset.sum_div, quot_shift Finset.univ s v R M]

/-! ### Sums over the first blocks -/

/-- The sum of `g` over the blocks with index below `j`. -/
def part {nb : ℕ} (g : Fin nb → ℝ) (j : ℕ) : ℝ := ∑ b : Fin nb, if b.val < j then g b else 0

theorem part_zero {nb : ℕ} (g : Fin nb → ℝ) : part g 0 = 0 := by
  simp [part]

theorem part_succ {nb : ℕ} (g : Fin nb → ℝ) {j : ℕ} (h : j < nb) :
    part g (j + 1) = part g j + g ⟨j, h⟩ := by
  unfold part
  have hsplit : ∀ b : Fin nb, (if b.val < j + 1 then g b else 0)
      = (if b.val < j then g b else 0) + (if b = ⟨j, h⟩ then g b else 0) := by
    intro b
    by_cases h1 : b.val < j
    · have h2 : b ≠ ⟨j, h⟩ := by
        intro hb
        rw [hb] at h1
        exact lt_irrefl _ h1
      rw [if_pos h1, if_pos (Nat.lt_succ_of_lt h1), if_neg h2, add_zero]
    · by_cases h2 : b = ⟨j, h⟩
      · have h3 : b.val < j + 1 := by rw [h2]; exact Nat.lt_succ_self j
        rw [if_neg h1, if_pos h3, if_pos h2, zero_add]
      · have h3 : ¬ b.val < j + 1 := by
          intro h3
          apply h2
          apply Fin.ext
          show b.val = j
          omega
        rw [if_neg h1, if_neg h3, if_neg h2, add_zero]
  simp only [hsplit]
  rw [Finset.sum_add_distrib, Finset.sum_ite_eq' Finset.univ (⟨j, h⟩ : Fin nb) g,
    if_pos (Finset.mem_univ _)]

theorem part_full {nb : ℕ} (g : Fin nb → ℝ) : part g nb = ∑ b, g b := by
  unfold part
  refine Finset.sum_congr rfl (fun b _ => ?_)
  rw [if_pos b.isLt]

theorem mul_part {nb : ℕ} (c : ℝ) (g : Fin nb → ℝ) (j : ℕ) :
    c * part g j = part (fun b => c * g b) j := by
  unfold part
  rw [Finset.mul_sum]
  refine Finset.sum_congr rfl (fun b _ => ?_)
  rw [mul_ite, mul_zero]

/-- Changing the shift rescales the plain sum over the first blocks. -/
theorem part_shift_one {nb n : ℕ} (s : Fin nb → Fin n → ℝ) (M M' : ℝ) (j : ℕ) :
    Real.exp (M - M') * part (fun b => ∑ k, Real.exp (s b k - M)) j
      = part (fun b => ∑ k, Real.exp (s b k - M')) j := by
  rw [mul_part]
  congr 1
  funext b
  exact shift_sum_one Finset.univ (s b) M M'

/-- Changing the shift rescales the weighted sum over the first blocks. -/
theorem part_shift {nb n : ℕ} (s v : Fin nb → Fin n → ℝ) (M M' : ℝ) (j : ℕ) :
    Real.exp (M - M') * part (fun b => ∑ k, Real.exp (s b k - M) * v b k) j
      = part (fun b => ∑ k, Real.exp (s b k - M') * v b k) j := by
  rw [mul_part]
  congr 1
  funext b
  exact shift_sum Finset.univ (s b) (v b) M M'

/-! ### The blockwise pass -/

/-- The coercion `ℝ → EReal` commutes with `max`. -/
theorem coe_max (x y : ℝ) : ((max x y : ℝ) : EReal) = max (x : EReal) (y : EReal) :=
  EReal.coe_strictMono.monotone.map_max

theorem kerState_succ {nb n : ℕ} (S V : Fin nb → Fin n → EReal) (j : ℕ) (h : j < nb) :
    kerState S V (j + 1) = step (kerState S V j) (S ⟨j, h⟩) (V ⟨j, h⟩) := by
  rw [kerState, dif_pos h]

/-- The first block: from `(-∞, 0, 0)` the state becomes the block's maximum and the block's two sums
    taken against it. -/
theorem step_bot {n : ℕ} (hn : 0 < n) (s v : Fin n → ℝ) :
    ∃ M' : ℝ, step ((⊥ : EReal), (0 : EReal), (0 : EReal))
        (fun k => (s k : EReal)) (fun k => (v k : EReal))
      = ((M' : EReal), ((∑ k, Real.exp (s k - M') : ℝ) : EReal),
          ((∑ k, Real.exp (s k - M') * v k : ℝ) : EReal)) := by
  haveI : Nonempty (Fin n) := ⟨⟨0, hn⟩⟩
  obtain ⟨R, hR⟩ := rowMax_real s
  refine ⟨R, ?_⟩
  unfold step
  simp only
  rw [hR, max_eq_right bot_le, EReal.bot_sub, Ideal.exp_bot, zero_mul, zero_add, zero_add]
  have he : ∀ k, Ideal.exp ((s k : EReal) - (R : EReal)) = ((Real.exp (s k - R) : ℝ) : EReal) := by
    intro k
    rw [← EReal.coe_sub, Ideal.exp_coe]
  simp only [he, ← EReal.coe_mul]
  rw [← coe_finset_sum, ← coe_finset_sum]

/-- A later block: the maximum is raised to `M'`, the two sums are rescaled by `exp (M - M')`, and the
    block's terms are added with shift `M'`. -/
theorem step_real {n : ℕ} (hn : 0 < n) (M L A : ℝ) (s v : Fin n → ℝ) :
    ∃ M' : ℝ, step ((M : EReal), (L : EReal), (A : EReal))
        (fun k => (s k : EReal)) (fun k => (v k : EReal))
      = ((M' : EReal), ((Real.exp (M - M') * L + ∑ k, Real.exp (s k - M') : ℝ) : EReal),
          ((Real.exp (M - M') * A + ∑ k, Real.exp (s k - M') * v k : ℝ) : EReal)) := by
  haveI : Nonempty (Fin n) := ⟨⟨0, hn⟩⟩
  obtain ⟨R, hR⟩ := rowMax_real s
  refine ⟨max M R, ?_⟩
  unfold step
  simp only
  rw [hR, ← coe_max]
  have he : ∀ x : ℝ, Ideal.exp ((x : EReal) - ((max M R : ℝ) : EReal))
      = ((Real.exp (x - max M R) : ℝ) : EReal) := by
    intro x
    rw [← EReal.coe_sub, Ideal.exp_coe]
  simp only [he, ← EReal.coe_mul]
  rw [← coe_finset_sum, ← coe_finset_sum, ← EReal.coe_add, ← EReal.coe_add]

/-- After `j ≥ 1` blocks the state is a real shift `M` together with the plain and the weighted sums
    of the exponentials over the first `j` blocks, taken with shift `M`. -/
theorem kerState_real {nb n : ℕ} (hn : 0 < n) (s v : Fin nb → Fin n → ℝ) :
    ∀ j : ℕ, 1 ≤ j → j ≤ nb →
      ∃ M : ℝ, kerState (fun b k => (s b k : EReal)) (fun b k => (v b k : EReal)) j
        = ((M : EReal), ((part (fun b => ∑ k, Real.exp (s b k - M)) j : ℝ) : EReal),
            ((part (fun b => ∑ k, Real.exp (s b k - M) * v b k) j : ℝ) : EReal)) := by
  intro j hj1
  induction j, hj1 using Nat.le_induction with
  | base =>
    intro hj
    have h : 0 < nb := hj
    obtain ⟨M', hM'⟩ := step_bot hn (s ⟨0, h⟩) (v ⟨0, h⟩)
    refine ⟨M', ?_⟩
    rw [kerState_succ _ _ 0 h]
    refine hM'.trans ?_
    rw [part_succ _ h, part_succ _ h, part_zero, part_zero, zero_add, zero_add]
  | succ j hj1 ih =>
    intro hj
    have h : j < nb := hj
    obtain ⟨M, hM⟩ := ih (Nat.le_of_lt h)
    obtain ⟨M', hM'⟩ := step_real hn M (part (fun b => ∑ k, Real.exp (s b k - M)) j)
      (part (fun b => ∑ k, Real.exp (s b k - M) * v b k) j) (s ⟨j, h⟩) (v ⟨j, h⟩)
    refine ⟨M', ?_⟩
    rw [kerState_succ _ _ j h, hM]
    refine hM'.trans ?_
    rw [part_shift_one, part_shift, part_succ _ h, part_succ _ h]

/-! ### The two passes agree -/

theorem kerOut_eq_refOut {nb n : ℕ} (hnb : 0 < nb) (hn : 0 < n) (S V : Fin nb → Fin n → EReal)
    (hS : ∀ j k, ∃ r : ℝ, S j k = (r : EReal)) (hV : ∀ j k, ∃ r : ℝ, V j k = (r : EReal)) :
    kerOut S V = refOut (fun p : Fin nb × Fin n => S p.1 p.2) (fun p : Fin nb × Fin n => V p.1 p.2) := by
  choose s hs using hS
  choose v hv using hV
  obtain rfl : S = fun j k => (s j k : EReal) := funext fun j => funext fun k => hs j k
  obtain rfl : V = fun j k => (v j k : EReal) := funext fun j => funext fun k => hv j k
  haveI : Nonempty (Fin nb × Fin n) := ⟨(⟨0, hnb⟩, ⟨0, hn⟩)⟩
  obtain ⟨M, hM⟩ := kerState_real hn s v nb hnb le_rfl
  have hL : (∑ p : Fin nb × Fin n, Real.exp (s p.1 p.2 - M)) ≠ 0 :=
    (sum_exp_pos (fun p : Fin nb × Fin n => s p.1 p.2) M).ne'
  rw [Fintype.sum_prod_type] at hL
  rw [refOut_real (fun p : Fin nb × Fin n => s p.1 p.2) (fun p : Fin nb × Fin n => v p.1 p.2) M]
  unfold kerOut
  rw [hM]
  simp only
  rw [part_full, part_full, div_coe_coe _ _ hL, Fintype.sum_prod_type, Fintype.sum_prod_type]

end Cert.Attn

end
-- ==== Proof.RefRead.lean ====
import proofs.«157192_j51256139710853_2_alg».proof.Proof.Gen.ReferenceIdeal.Read
import proofs.«157192_j51256139710853_2_alg».proof.Proof.AttnSpec
import Idealize.ShloMosaic.Lib.ValueIdx
import Idealize.ShloMosaic.Lib.Pipeline.Value
import Idealize.ShloMosaic.PureOps.Ideal.Laws
import Idealize.ShloMosaic.PureOps.Reduce

/-
  The reference program read as one formula.

  The reference joins its two arguments along the row axis into one array `c` of shape [8, 2048, 768], takes
  the scores `c · cᵀ` per batch, subtracts from each score the larger of `-∞` and its row's maximum,
  exponentiates, divides by `0 +` the row's sum of exponentials, and multiplies the weights into `c`. Read one
  output entry at a time this is the one-pass softmax-weighted sum `Cert.Attn.refOut` of the row's scores and
  the column's values.
-/

noncomputable section

namespace Cert.RefSide

open Idealize.ShloMosaic Idealize.ShloMosaic.ValueIdx Cert.ReferenceIdeal Cert.ReferenceIdeal.Read

/-- The score of query row n against key row m in batch b. -/
def score (c : S8x2048x768.Idx → EReal) (b : Fin 8) (n m : Fin 2048) : EReal := ∑ d : Fin 768, c (ix3 b n d) * c (ix3 b m d)

/-- The shift subtracted from every score of row `(b, n)`: the larger of `-∞` and the row's maximal score. -/
def shift (c : S8x2048x768.Idx → EReal) (b : Fin 8) (n : Fin 2048) : EReal :=
  max ⊥ (Cert.Attn.rowMax (fun m : Fin 2048 => score c b n m))

/-- The normalizer of row `(b, n)`: zero plus the sum of the exponentials of the shifted scores. -/
def denom (c : S8x2048x768.Idx → EReal) (b : Fin 8) (n : Fin 2048) : EReal :=
  0 + ∑ m : Fin 2048, Ideal.exp (score c b n m - shift c b n)

/-- The single-precision word `0xFF800000` is `-∞`. -/
theorem ofBits_negInf : Ideal.ofBits .f32 0xFF800000#32 = (⊥ : EReal) := by simp [Ideal.ofBits, Ideal.ieee]

/-- A maximum-reduction of a rank-3 array over its last axis, read at `(b, n)`: the fold of `max` from the
    initial value over the last coordinate. -/
theorem reduce_max_apply (y : S8x2048x2048.Idx → EReal) (init : S_.Idx → EReal)
    (h' : S8x2048x2048.ReducesTo [2] S8x2048) (hu : 0 < S_.numel) (b : Fin 8) (n : Fin 2048) :
    Host.reduce (FloatOps.maximumf (F := Ideal) (φ := .f32)) y init h' hu (ix2 b n)
      = Finset.univ.fold max (init (Shape.Idx.first hu)) (fun k : Fin 2048 => y (ix3 b n k)) := by
  have h : S8x2048x2048.Reduces [2] S8x2048 := by decide
  rw [Host.reduce_eq_fold_single (FloatOps.maximumf (F := Ideal) (φ := .f32)) y init h' h hu (ix2 b n)]
  exact congrArg (fun g : Fin 2048 → EReal => Finset.univ.fold max (init (Shape.Idx.first hu)) g)
    (funext fun k => congrArg y (funext fun a => Fin.ext (by
      match a with | ⟨0, _⟩ => rfl | ⟨1, _⟩ => rfl | ⟨2, _⟩ => rfl)))

section Stages

variable (x0 x1 : (⟨S8x1024x768, .f32⟩ : BufTy).Contents (Elt Ideal))

/-! The index functions the reference's operations read through, at indices given by coordinates. -/

theorem lidx_v1_ix (b : Fin 8) (n m : Fin 2048) (k : Fin 768) : lidx_main_v1 (ix3 b n m) k = ix3 b n k :=
  funext fun a => by match a with | ⟨0, _⟩ => rfl | ⟨1, _⟩ => rfl | ⟨2, _⟩ => rfl
theorem ridx_v1_ix (b : Fin 8) (n m : Fin 2048) (k : Fin 768) : ridx_main_v1 (ix3 b n m) k = ix3 b m k :=
  funext fun a => by match a with | ⟨0, _⟩ => rfl | ⟨1, _⟩ => rfl | ⟨2, _⟩ => rfl
theorem idx_v5_v6_ix (b : Fin 8) (n m : Fin 2048) : idx_main_v5 (idx_main_v6 (ix3 b n m)) = ix2 b n :=
  funext fun a => by match a with | ⟨0, _⟩ => rfl | ⟨1, _⟩ => rfl
theorem idx_v9_ix (b : Fin 8) (n k : Fin 2048) : idx_main_v9 (ix2 b n) k = ix3 b n k :=
  funext fun a => by match a with | ⟨0, _⟩ => rfl | ⟨1, _⟩ => rfl | ⟨2, _⟩ => rfl
theorem idx_v10_v11_ix (b : Fin 8) (n m : Fin 2048) : idx_main_v10 (idx_main_v11 (ix3 b n m)) = ix2 b n :=
  funext fun a => by match a with | ⟨0, _⟩ => rfl | ⟨1, _⟩ => rfl
theorem lidx_v13_ix (b : Fin 8) (n : Fin 2048) (d : Fin 768) (k : Fin 2048) : lidx_main_v13 (ix3 b n d) k = ix3 b n k :=
  funext fun a => by match a with | ⟨0, _⟩ => rfl | ⟨1, _⟩ => rfl | ⟨2, _⟩ => rfl
theorem ridx_v13_ix (b : Fin 8) (n : Fin 2048) (d : Fin 768) (k : Fin 2048) : ridx_main_v13 (ix3 b n d) k = ix3 b k d :=
  funext fun a => by match a with | ⟨0, _⟩ => rfl | ⟨1, _⟩ => rfl | ⟨2, _⟩ => rfl

/-- The scores: entry `(b, n, m)` of `c · cᵀ`. -/
theorem v1_at (b : Fin 8) (n m : Fin 2048) :
    val_main_v1 (F := Ideal) x0 x1 (ix3 b n m) = score (val_main_v0 (F := Ideal) x0 x1) b n m := by
  rw [val_main_v1_apply]
  unfold score
  refine Finset.sum_congr rfl fun k _ => ?_
  rw [lidx_v1_ix, ridx_v1_ix]

/-- The row maximum: the fold of `max` from `-∞` over the row's scores. -/
theorem v2_at (b : Fin 8) (n : Fin 2048) :
    val_main_v2 (F := Ideal) x0 x1 (ix2 b n)
      = Cert.Attn.rowMax (fun m : Fin 2048 => score (val_main_v0 (F := Ideal) x0 x1) b n m) := by
  unfold val_main_v2
  rw [reduce_max_apply, val_main_cst_apply, Ideal.ofBits_def, ofBits_negInf]
  unfold Cert.Attn.rowMax
  exact congrArg (fun g : Fin 2048 → EReal => Finset.univ.fold max ⊥ g) (funext fun m => v1_at x0 x1 b n m)

/-- The shift: the larger of a broadcast `-∞` and the row maximum. -/
theorem v4_at (b : Fin 8) (n : Fin 2048) :
    val_main_v4 (F := Ideal) x0 x1 (ix2 b n) = shift (val_main_v0 (F := Ideal) x0 x1) b n := by
  rw [val_main_v4_apply, val_main_v3_apply, val_main_cst_0_apply, v2_at, Ideal.maximumf_def, Ideal.ofBits_def,
    ofBits_negInf]
  rfl

/-- The shift broadcast along the row. -/
theorem v6_at (b : Fin 8) (n m : Fin 2048) :
    val_main_v6 (F := Ideal) x0 x1 (ix3 b n m) = shift (val_main_v0 (F := Ideal) x0 x1) b n := by
  rw [val_main_v6_apply, val_main_v5_apply, idx_v5_v6_ix, v4_at]

/-- The exponential of the shifted score. -/
theorem v8_at (b : Fin 8) (n m : Fin 2048) :
    val_main_v8 (F := Ideal) x0 x1 (ix3 b n m)
      = Ideal.exp (score (val_main_v0 (F := Ideal) x0 x1) b n m - shift (val_main_v0 (F := Ideal) x0 x1) b n) := by
  rw [val_main_v8_apply, val_main_v7_apply, v1_at, v6_at, Ideal.hostUnary_exp_def, Ideal.subf_def]

/-- The normalizer: zero plus the row's sum of exponentials. -/
theorem v9_at (b : Fin 8) (n : Fin 2048) :
    val_main_v9 (F := Ideal) x0 x1 (ix2 b n) = denom (val_main_v0 (F := Ideal) x0 x1) b n := by
  rw [val_main_v9_apply, val_main_cst_1_apply, Ideal.ofBits_def, Ideal.ofBits_zero_f32]
  unfold denom
  refine congrArg (0 + ·) (Finset.sum_congr rfl fun k _ => ?_)
  rw [idx_v9_ix, v8_at]

/-- The normalizer broadcast along the row. -/
theorem v11_at (b : Fin 8) (n m : Fin 2048) :
    val_main_v11 (F := Ideal) x0 x1 (ix3 b n m) = denom (val_main_v0 (F := Ideal) x0 x1) b n := by
  rw [val_main_v11_apply, val_main_v10_apply, idx_v10_v11_ix, v9_at]

/-- The weight of key row `m` for query row `n`. -/
theorem v12_at (b : Fin 8) (n m : Fin 2048) :
    val_main_v12 (F := Ideal) x0 x1 (ix3 b n m)
      = Ideal.div (Ideal.exp (score (val_main_v0 (F := Ideal) x0 x1) b n m - shift (val_main_v0 (F := Ideal) x0 x1) b n))
          (denom (val_main_v0 (F := Ideal) x0 x1) b n) := by
  rw [val_main_v12_apply, v8_at, v11_at, Ideal.hostDivf_def]

end Stages

/-- The reference's result at `(b, n, d)` is the one-pass softmax-weighted sum of row `n`'s scores against
    column `d` of the joined array. -/
theorem ref_apply (x0 x1 : (⟨S8x1024x768, .f32⟩ : BufTy).Contents (Elt Ideal)) (b : Fin 8) (n : Fin 2048) (d : Fin 768) :
    val_main_v13 (F := Ideal) x0 x1 (ix3 b n d)
      = Cert.Attn.refOut (fun m : Fin 2048 => score (val_main_v0 (F := Ideal) x0 x1) b n m) (fun m : Fin 2048 => val_main_v0 (F := Ideal) x0 x1 (ix3 b m d)) := by
  rw [val_main_v13_apply]
  unfold Cert.Attn.refOut
  refine Finset.sum_congr rfl fun k _ => ?_
  rw [lidx_v13_ix, ridx_v13_ix, v12_at]
  rfl

/-- If every entry of the two arguments is a real number, so is every entry of the joined array: an entry whose
    row coordinate is below 1024 is an entry of the first argument, any other an entry of the second. -/
theorem comb_real (x0 x1 : (⟨S8x1024x768, .f32⟩ : BufTy).Contents (Elt Ideal))
    (h0 : ∀ i, ∃ r : ℝ, x0 i = (r : EReal)) (h1 : ∀ i, ∃ r : ℝ, x1 i = (r : EReal)) :
    ∀ i, ∃ r : ℝ, val_main_v0 (F := Ideal) x0 x1 i = (r : EReal) := by
  intro i
  unfold val_main_v0
  have h2 : (i 1).val < 2048 := (i 1).isLt
  by_cases hlt : (i 1).val < 1024
  · let i' : S8x1024x768.Idx := fun a => match a with
      | ⟨0, _⟩ => ⟨(i 0).val, (i 0).isLt⟩
      | ⟨1, _⟩ => ⟨(i 1).val, hlt⟩
      | ⟨2, _⟩ => ⟨(i 2).val, (i 2).isLt⟩
    obtain ⟨r, hr⟩ := h0 i'
    refine ⟨r, ?_⟩
    rw [← hr]
    exact concatenate_pair_apply_left (t := S8x2048x768) (s₁ := S8x1024x768) (s₂ := S8x1024x768) 1 x0 x1 _ i rfl i'
      (fun b => by match b with | ⟨0, _⟩ => rfl | ⟨1, _⟩ => rfl | ⟨2, _⟩ => rfl)
  · let i' : S8x1024x768.Idx := fun a => match a with
      | ⟨0, _⟩ => ⟨(i 0).val, (i 0).isLt⟩
      | ⟨1, _⟩ => ⟨(i 1).val - 1024, by show (i 1).val - 1024 < 1024; omega⟩
      | ⟨2, _⟩ => ⟨(i 2).val, (i 2).isLt⟩
    obtain ⟨r, hr⟩ := h1 i'
    refine ⟨r, ?_⟩
    rw [← hr]
    exact concatenate_pair_apply_right (t := S8x2048x768) (s₁ := S8x1024x768) (s₂ := S8x1024x768) 1 x0 x1 _ i rfl rfl i'
      (fun b hb => by match b with | ⟨0, _⟩ => rfl | ⟨1, _⟩ => exact absurd rfl hb | ⟨2, _⟩ => rfl)
      (by show (i 1).val - 1024 + 1024 = (i 1).val; omega)

end Cert.RefSide

end
-- ==== Proof.FlashValue.lean ====
/-
  The scratch buffers follow the blockwise softmax.  Fix a point of the grid, a row r of its query tile and a column d.
  Write S j k for the score of the row against key row k of key tile j, and W j k for that key row's entry in column d.
  After the point's body the running maximum and sum at row r and the running weighted sum at (r, d) are the blockwise
  pass's state after the point's key tile — by induction on the point's number: a first key tile starts from the reset
  values, a later one from what the point before left, and the three updates of one key tile are one step of the pass.
-/
import proofs.«157192_j51256139710853_2_alg».proof.Proof.FlashBlocks
import proofs.«157192_j51256139710853_2_alg».proof.Proof.FlashPieces
import proofs.«157192_j51256139710853_2_alg».proof.Proof.PayloadReads
import proofs.«157192_j51256139710853_2_alg».proof.Proof.OnlineSoftmax
import proofs.«157192_j51256139710853_2_alg».proof.Proof.RefRead

set_option maxRecDepth 16384

noncomputable section

namespace Cert.KernelIdeal.Flash

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

open Cert.KernelIdeal.Reads (tileScore pay1_apply pay2_apply pay3_apply pay4_apply pay5_apply pay6_apply pay9_apply pay12_apply pay13_apply)
open Cert.RefSide (score)

/-- The scores of array row `n` of batch `b` against every key row, tile by tile. -/
def rowScores (cmb : S8x2048x768.Idx → EReal) (b : Fin 8) (n : Fin 2048) : Fin 4 → Fin 512 → EReal :=
  fun j k => score cmb b n (kRow j k)
/-- Column `d` of every key row of batch `b`, tile by tile. -/
def colVals (cmb : S8x2048x768.Idx → EReal) (b : Fin 8) (d : Fin 768) : Fin 4 → Fin 512 → EReal :=
  fun j k => cmb (ix3 b (kRow j k) d)

/-- The three updates of one key tile, read at row `r` and column `d`, are one step of the blockwise pass on the row's
    scores against the tile and the tile's column. -/
theorem updates_apply (x0 x1 : Vec Ideal S1x512x768 .bf16) (xm xs : Vec Ideal S512x1 .f32) (xa : Vec Ideal S512x768 .f32)
    (r : Fin 512) (d : Fin 768) :
    (newMax x0 x1 xm (ix2 r 0), newSum x0 x1 xm xs (ix2 r 0), newAcc x0 x1 xm xa (ix2 r d))
      = Cert.Attn.step (xm (ix2 r 0), xs (ix2 r 0), xa (ix2 r d)) (fun k => tileScore x0 x1 r k) (fun k => x1 (ix3 0 k d)) := by
  unfold newMax newSum newAcc Cert.Attn.step
  rw [pay2_apply, pay9_apply, pay12_apply, pay1_apply, pay13_apply]
  rfl

/-- The scores of a query tile's row against a key tile's rows are the array rows' scores. -/
theorem tileScore_blocks (c : Dev nD) (t : Fin cfg0.N) (r k : Fin 512) :
    tileScore (iblk m c 0 t) (iblk m c 1 t) r k = score (comb m c) (batchOf t) (qRow t r) (kRow (keyTile t) k) := by
  unfold tileScore Cert.RefSide.score
  refine Finset.sum_congr rfl fun d _ => ?_
  rw [iblk_q_apply, iblk_k_apply]

/-- One key tile at point `t`: the updates from `(xm, xs, xa)` are a step on the row's scores and the column. -/
theorem updates_at (c : Dev nD) (t : Fin cfg0.N) (xm xs : Vec Ideal S512x1 .f32) (xa : Vec Ideal S512x768 .f32) (r : Fin 512) (d : Fin 768) :
    (newMax (iblk m c 0 t) (iblk m c 1 t) xm (ix2 r 0), newSum (iblk m c 0 t) (iblk m c 1 t) xm xs (ix2 r 0),
        newAcc (iblk m c 0 t) (iblk m c 1 t) xm xa (ix2 r d))
      = Cert.Attn.step (xm (ix2 r 0), xs (ix2 r 0), xa (ix2 r d))
          (rowScores (comb m c) (batchOf t) (qRow t r) (keyTile t)) (colVals (comb m c) (batchOf t) d (keyTile t)) := by
  refine (updates_apply (iblk m c 0 t) (iblk m c 1 t) xm xs xa r d).trans ?_
  have e1 : (fun k => tileScore (iblk m c 0 t) (iblk m c 1 t) r k) = rowScores (comb m c) (batchOf t) (qRow t r) (keyTile t) :=
    funext fun k => tileScore_blocks m c t r k
  have e2 : (fun k => (iblk m c 1 t : Vec Ideal S1x512x768 .bf16) (ix3 0 k d)) = colVals (comb m c) (batchOf t) d (keyTile t) :=
    funext fun k => iblk_k_apply m c t k d
  rw [e1, e2]

/-- The scratch components of the state after point number `n`, read at row `r` and column `d`. -/
def scratchAt (c : Dev nD) (n : ℕ) (hn : n < cfg0.N) (r : Fin 512) (d : Fin 768) : EReal × EReal × EReal :=
  ((stateAt m c n hn).2.1 (ix2 r 0), (stateAt m c n hn).2.2.1 (ix2 r 0), (stateAt m c n hn).2.2.2 (ix2 r d))

/-- At a first key tile the scratch components are the updates of the reset values. -/
theorem scratchAt_first (c : Dev nD) (t : Fin cfg0.N) (h0 : t.val % 4 = 0) (r : Fin 512) (d : Fin 768) :
    scratchAt m c t.val t.isLt r d
      = Cert.Attn.step (⊥, 0, 0) (rowScores (comb m c) (batchOf t) (qRow t r) (keyTile t)) (colVals (comb m c) (batchOf t) d (keyTile t)) := by
  have hc0 : condFirst (grid0.coords t) := (hcondFirst t).mpr h0
  have hc1 : ¬condLast (grid0.coords t) := fun h => (fun h => by omega) ((hcondLast t).mp h)
  unfold scratchAt
  rw [stateAt_first m c t h0 hc0 hc1]
  unfold firstSt
  dsimp only
  rw [firstMax_eq, firstSum_eq, firstAcc_eq, updates_at, pay4_apply, pay5_apply, pay6_apply]

/-- At a later key tile they are the updates of what the point before left. -/
theorem scratchAt_later (c : Dev nD) (t : Fin cfg0.N) (h0 : ¬t.val % 4 = 0) (r : Fin 512) (d : Fin 768) :
    scratchAt m c t.val t.isLt r d
      = Cert.Attn.step (scratchAt m c (t.val - 1) (Nat.lt_of_le_of_lt (Nat.sub_le _ _) t.isLt) r d)
          (rowScores (comb m c) (batchOf t) (qRow t r) (keyTile t)) (colVals (comb m c) (batchOf t) d (keyTile t)) := by
  have hc0 : ¬condFirst (grid0.coords t) := fun h => h0 ((hcondFirst t).mp h)
  unfold scratchAt
  by_cases h1 : t.val % 4 = 3
  · have hc1 : condLast (grid0.coords t) := (hcondLast t).mpr h1
    rw [stateAt_last m c t h0 h1 hc0 hc1]
    unfold lastSt
    dsimp only
    rw [lastMax_eq, lastSum_eq, lastAcc_eq, updates_at]
  · have hc1 : ¬condLast (grid0.coords t) := fun h => h1 ((hcondLast t).mp h)
    rw [stateAt_middle m c t h0 h1 hc0 hc1]
    unfold middleSt
    dsimp only
    rw [middleMax_eq, middleSum_eq, middleAcc_eq, updates_at]

/-- THE INVARIANT: after point number `n` the scratch components at (r, d) are the blockwise pass's state after key
    tile `n mod 4`, on the scores of the query row against the batch's key rows and the batch's column `d`. -/
theorem scratch_inv (c : Dev nD) : ∀ (n : ℕ) (hn : n < cfg0.N) (r : Fin 512) (d : Fin 768),
    scratchAt m c n hn r d
      = Cert.Attn.kerState (rowScores (comb m c) (batchOf ⟨n, hn⟩) (qRow ⟨n, hn⟩ r)) (colVals (comb m c) (batchOf ⟨n, hn⟩) d) (n % 4 + 1) := by
  intro n
  induction n with
  | zero =>
    intro hn r d
    refine (scratchAt_first m c ⟨0, hn⟩ rfl r d).trans ?_
    exact (Cert.Attn.kerState_succ _ _ 0 (by decide)).symm
  | succ n ih =>
    intro hn r d
    by_cases h0 : (n + 1) % 4 = 0
    · refine (scratchAt_first m c ⟨n + 1, hn⟩ h0 r d).trans ?_
      have e : (n + 1) % 4 + 1 = 0 + 1 := by omega
      have ek : keyTile ⟨n + 1, hn⟩ = ⟨0, by decide⟩ := Fin.ext (by show (n + 1) % 4 = 0; exact h0)
      rw [e, ek]
      exact (Cert.Attn.kerState_succ _ _ 0 (by decide)).symm
    · have hlt : n % 4 + 1 < 4 := by omega
      refine (scratchAt_later m c ⟨n + 1, hn⟩ h0 r d).trans ?_
      have hb : batchOf ⟨n + 1, hn⟩ = batchOf ⟨n, Nat.lt_of_succ_lt hn⟩ := Fin.ext (by show (n + 1) / 16 = n / 16; omega)
      have hq : qRow ⟨n + 1, hn⟩ r = qRow ⟨n, Nat.lt_of_succ_lt hn⟩ r := Fin.ext (by show (n + 1) / 4 % 4 * 512 + r.val = n / 4 % 4 * 512 + r.val; omega)
      have ek : keyTile ⟨n + 1, hn⟩ = ⟨n % 4 + 1, hlt⟩ := Fin.ext (by show (n + 1) % 4 = n % 4 + 1; omega)
      have e : (n + 1) % 4 + 1 = (n % 4 + 1) + 1 := by omega
      rw [e, hb, hq, ek]
      show Cert.Attn.step (scratchAt m c n (Nat.lt_of_succ_lt hn) r d) _ _ = _
      rw [ih (Nat.lt_of_succ_lt hn) r d]
      exact (Cert.Attn.kerState_succ _ _ (n % 4 + 1) hlt).symm

end Cert.KernelIdeal.Flash

end
-- ==== Proof.FlashLaunch.lean ====
/-
  The launch of the region and the frame.  The region's entry hands the pipeline the two arrays its windows stand on:
  the concatenation (in its narrow format), read by the query tile and by the key tile, and the result.  The first is
  split between its two windows, half a share each; they only read it, and both halves are read back at the exit.
  The other unscoped buffers (the two arguments and the wide concatenation) bypass the region unchanged.
-/
import proofs.«157192_j51256139710853_2_alg».proof.Proof.FlashFrame

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shared input array split between the query window and the key window; the result array held whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Pipeline.arrBufs Dat.arrays
  have e (Φ : Ref sig .tc → sProp 𝕄) : bigSep (Finset.univ.image (Pipeline.arrRef spec0)) Φ = iprop(Φ main_v1 ∗ Φ main_v2) :=
    BI.bigSep_eq_bigSepL_of_eq [main_v1, main_v2] (by decide) (by decide) Φ
  rw [bigSep_W0, e]
  simp only [View.set_whole]
  rw [show (dats m 0 c).share 0 = fullShare.left from rfl, show (dats m 0 c).share 1 = fullShare.right from rfl,
    show (dats m 0 c).share 2 = fullShare from rfl]
  iintro ⟨H1, H2⟩
  ihave ⟨Ha, Hb⟩ := (pointsTo_share (PosShare.mem_left_op_right fullShare)).1 $$ H1
  isplitl [Ha]; · iexact Ha
  isplitl [Hb]; · iexact Hb
  iexact H2

set_option maxHeartbeats 4000000 in
set_option backward.isDefEq.respectTransparency.types false in
/-- Every weakly fair execution of the program terminates, nothing faulting, each windowed array at what the write-backs
    leave and every other unscoped buffer as the region found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [show (dats m 0 c).Φ 0 = Pipeline.scopedRest (Ix := Unit) (Name := ℕ) (U := UR sig nD τ) (Lvl := ℕ) (Val := Elt F) spec0 c from rfl]
      iintro ⟨-, H⟩; iexact H)
    (hout := fun c => by
      rw [show (dats m 0 c).Φ (Fin.last cfg0.N) = Phi m c cfg0.N (le_refl _) from rfl]
      refine (Phi_some m c _ _).trans ?_
      rw [scratch_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the program runs and its two argument arrays end unchanged (no window stands on them). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main m ρ)

end Cert.KernelIdeal.Flash

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.FlashFinal.lean ====
/-
  The result array.  At the last key tile of a query tile the body stores, at row r and column d, the weighted sum
  divided by the sum of the weights — the blockwise pass's result on the row's scores and the column, which on real
  data is the one-pass softmax-weighted sum over all 2048 key rows (the four tiles of 512 laid end to end).  Those
  stores are the only write-backs and their tiles cover the array, so the array ends holding that value everywhere.
-/
import proofs.«157192_j51256139710853_2_alg».proof.Proof.FlashValue
import proofs.«157192_j51256139710853_2_alg».proof.Proof.FlashLaunch
import proofs.«157192_j51256139710853_2_alg».proof.Proof.LibFiniteEntries
import Idealize.ShloMosaic.Lib.StableHlo.Run

set_option maxRecDepth 16384

noncomputable section

namespace Cert.KernelIdeal.Flash

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

open Cert.KernelIdeal.Reads (pay3_apply)
open Cert.RefSide (score)

/-- What the result array ends holding: at (b, n, d) the softmax of row n's scores, weighted sum of column d. -/
def result (cmb : S8x2048x768.Idx → EReal) : S8x2048x768.Idx → EReal :=
  fun i => Cert.Attn.refOut (fun n' : Fin 2048 => score cmb (i 0) (i 1) n') (fun n' : Fin 2048 => cmb (ix3 (i 0) n' (i 2)))

/-- Key tile j's row k is array row 512·j + k: the four tiles laid end to end are the 2048 key rows. -/
def keyEquiv : Fin 4 × Fin 512 ≃ Fin 2048 where
  toFun p := kRow p.1 p.2
  invFun n := (⟨n.val / 512, by have := n.isLt; omega⟩, ⟨n.val % 512, Nat.mod_lt _ (by decide)⟩)
  left_inv p := by
    obtain ⟨j, k⟩ := p
    refine Prod.ext (Fin.ext ?_) (Fin.ext ?_)
    · show (j.val * 512 + k.val) / 512 = j.val
      have := k.isLt; omega
    · show (j.val * 512 + k.val) % 512 = k.val
      have := k.isLt; omega
  right_inv n := Fin.ext (by show n.val / 512 * 512 + n.val % 512 = n.val; omega)

/-- A score of real rows is a real. -/
theorem score_real (cmb : S8x2048x768.Idx → EReal) (hc : ∀ i, ∃ r : ℝ, cmb i = (r : EReal)) (b : Fin 8) (n n' : Fin 2048) :
    ∃ r : ℝ, score cmb b n n' = (r : EReal) := by
  choose f hf using hc
  refine ⟨∑ d : Fin 768, f (ix3 b n d) * f (ix3 b n' d), ?_⟩
  unfold Cert.RefSide.score
  rw [FiniteEntries.coe_sum]
  exact Finset.sum_congr rfl fun d _ => by rw [hf, hf, EReal.coe_mul]

/-- At the last key tile of its query tile, the output tile at row r, column d is the result at the tile's row. -/
theorem out_at (c : Dev nD) (hreal : ∀ i, ∃ r : ℝ, comb m c i = (r : EReal)) (t : Fin cfg0.N) (h3 : t.val % 4 = 3) (r : Fin 512) (d : Fin 768) :
    (stateAt m c t.val t.isLt).1 (ix3 0 r d) = result (comb m c) (ix3 (batchOf t) (qRow t r) d) := by
  have h0 : ¬t.val % 4 = 0 := by omega
  have hc0 : ¬condFirst (grid0.coords t) := fun h => h0 ((hcondFirst t).mp h)
  have hc1 : condLast (grid0.coords t) := (hcondLast t).mpr h3
  have hs := scratch_inv m c t.val t.isLt r d
  unfold scratchAt at hs
  rw [stateAt_last m c t h0 h3 hc0 hc1] at hs ⊢
  unfold lastSt at hs ⊢
  dsimp only at hs ⊢
  rw [lastMax_eq, lastSum_eq, lastAcc_eq] at hs
  rw [lastOut_eq, pay3_apply]
  have e4 : t.val % 4 + 1 = 4 := by omega
  rw [e4] at hs
  rw [show newAcc (iblk m c 0 t) (iblk m c 1 t) _ _ (ix2 r d) = _ from congrArg (fun p : EReal × EReal × EReal => p.2.2) hs,
    show newSum (iblk m c 0 t) (iblk m c 1 t) _ _ (ix2 r 0) = _ from congrArg (fun p : EReal × EReal × EReal => p.2.1) hs]
  show Cert.Attn.kerOut (rowScores (comb m c) (batchOf t) (qRow t r)) (colVals (comb m c) (batchOf t) d) = _
  rw [Cert.Attn.kerOut_eq_refOut (by decide) (by decide) (rowScores (comb m c) (batchOf t) (qRow t r)) (colVals (comb m c) (batchOf t) d)
    (fun j k => score_real (comb m c) hreal (batchOf t) (qRow t r) (kRow j k)) (fun j k => hreal (ix3 (batchOf t) (kRow j k) d))]
  exact Cert.Attn.refOut_equiv keyEquiv (fun n' : Fin 2048 => score (comb m c) (batchOf t) (qRow t r) n')
    (fun n' : Fin 2048 => comb m c (ix3 (batchOf t) n' d))

/-- The same at any index of the tile. -/
theorem out_apply (c : Dev nD) (hreal : ∀ i, ∃ r : ℝ, comb m c i = (r : EReal)) (t : Fin cfg0.N) (h3 : t.val % 4 = 3) (y : S1x512x768.Idx) :
    (stateAt m c t.val t.isLt).1 y = result (comb m c) (ix3 (batchOf t) (qRow t (y 1)) (y 2)) := by
  have hy0 : y 0 = (0 : Fin 1) := Fin.ext (by
    have h : (y 0).val < 1 := (y 0).isLt
    show (y 0).val = 0
    omega)
  have hy := eq_ix3 y
  rw [hy0] at hy
  rw [hy]
  exact out_at m c hreal t h3 (y 1) (y 2)

/-- The output window's tiles are not cut at the array's edge. -/
theorem xsize_o : ∀ t : Fin cfg0.N, win0_2.xsize (grid0.coords t) 0 = 1 ∧ win0_2.xsize (grid0.coords t) 1 = 512 ∧ win0_2.xsize (grid0.coords t) 2 = 768 :=
  (by decide +kernel : ∀ t : Fin grid0.N, win0_2.xsize (grid0.coords t) 0 = 1 ∧ win0_2.xsize (grid0.coords t) 1 = 512 ∧ win0_2.xsize (grid0.coords t) 2 = 768)

/-- Each write-back writes the result's tile. -/
theorem flushed_eq (c : Dev nD) (hreal : ∀ i, ∃ r : ℝ, comb m c i = (r : EReal)) (t : Fin cfg0.N) (hf : (cfg0.win 2).flush t = true) :
    (dats m 0 c).flushed 2 t = ((cfg0.win 2).blk t).view.read (Elt Ideal) (result (comb m c)) := by
  have h3 : t.val % 4 = 3 := (flush0_2 t).mp hf
  obtain ⟨i0, i1, i2⟩ := index_o t
  obtain ⟨x0, x1, x2⟩ := xsize_o t
  funext y
  have hy : (y 0).val < 1 := by
    have h : (y 0).val < win0_2.xsize (grid0.coords t) 0 := (y 0).isLt
    rwa [x0] at h
  show ((dats m 0 c).after 2 t : S1x512x768.Idx → EReal) y = _
  rw [after_o, out_apply m c hreal t h3 y, View.read_apply]
  show result (comb m c) _ = result (comb m c) _
  congr 1
  funext a
  apply Fin.ext
  match a with
  | ⟨0, _⟩ => show t.val / 16 = win0_2.index t 0 * 1 + 1 * (y 0).val; rw [i0]; omega
  | ⟨1, _⟩ => show t.val / 4 % 4 * 512 + (y 1).val = win0_2.index t 1 * 512 + 1 * (y 1).val; rw [i1]; omega
  | ⟨2, _⟩ => show (y 2).val = win0_2.index t 2 * 768 + 1 * (y 2).val; rw [i2]; omega

/-- The tiles written back cover the result array: entry (b, n, d) lies in the tile of batch b, query tile n / 512. -/
theorem cover_o (i : S8x2048x768.Idx) : ∃ t : Fin cfg0.N, (cfg0.win 2).flush t = true ∧ i ∈ ((cfg0.win 2).blk t).view.set := by
  have hb : (i 0 : Nat) < 8 := (i 0).isLt
  have hn : (i 1 : Nat) < 2048 := (i 1).isLt
  have hd : (i 2 : Nat) < 768 := (i 2).isLt
  let t : Fin cfg0.N := ⟨(i 0).val * 16 + (i 1).val / 512 * 4 + 3, by rw [N128]; omega⟩
  have hv : t.val = (i 0).val * 16 + (i 1).val / 512 * 4 + 3 := rfl
  obtain ⟨i0, i1, i2⟩ := index_o t
  obtain ⟨x0, x1, x2⟩ := xsize_o t
  refine ⟨t, (flush0_2 t).mpr (by rw [hv]; omega), ?_⟩
  show i ∈ ((View.whole main_v2).slice (win0_2.rect t)).set
  rw [View.set_slice_whole, Rect.mem_set_unit]
  intro a
  match a with
  | ⟨0, _⟩ => show win0_2.index t 0 * win0_2.size 0 ≤ (i 0 : Nat) ∧ (i 0 : Nat) < win0_2.index t 0 * win0_2.size 0 + win0_2.xsize (grid0.coords t) 0
              rw [i0, x0, show win0_2.size 0 = 1 from rfl, hv]; omega
  | ⟨1, _⟩ => show win0_2.index t 1 * win0_2.size 1 ≤ (i 1 : Nat) ∧ (i 1 : Nat) < win0_2.index t 1 * win0_2.size 1 + win0_2.xsize (grid0.coords t) 1
              rw [i1, x1, show win0_2.size 1 = 512 from rfl, hv]; omega
  | ⟨2, _⟩ => show win0_2.index t 2 * win0_2.size 2 ≤ (i 2 : Nat) ∧ (i 2 : Nat) < win0_2.index t 2 * win0_2.size 2 + win0_2.xsize (grid0.coords t) 2
              rw [i2, x2, show win0_2.size 2 = 768 from rfl]; omega

/-- So the result array ends holding `result`. -/
theorem final_o (c : Dev nD) (hreal : ∀ i, ∃ r : ℝ, comb m c i = (r : EReal)) :
    (dats m 0 c).arrAt 2 cfg0.N = result (comb m c) :=
  (dats m 0 c).arrAt_eq_of_cover 2 (result (comb m c)) (fun t hf => flushed_eq m c hreal t hf) cover_o

/-- The array both input windows read is the concatenation of the two arguments (its change of format is the identity
    on the extended reals). -/
theorem comb_eq (c : Dev nD) :
    comb m c = (concatenate S8x2048x768 1 [⟨S8x1024x768, m ((c : Thread nD τ).loc main_arg0)⟩, ⟨S8x1024x768, m ((c : Thread nD τ).loc main_arg1)⟩]
      Facts₀.concatenates_S8x1024x768_S8x1024x768_S8x2048x768_d1 : S8x2048x768.Idx → EReal) := by
  have e : (V m c main_v1 : S8x2048x768.Idx → EReal)
      = (truncf (F := Ideal) .bf16 (concatenate S8x2048x768 1 [⟨S8x1024x768, m ((c : Thread nD τ).loc main_arg0)⟩, ⟨S8x1024x768, m ((c : Thread nD τ).loc main_arg1)⟩]
          Facts₀.concatenates_S8x1024x768_S8x1024x768_S8x2048x768_d1) Facts₀.bitsLt_bf16_f32 : S8x2048x768.Idx → EReal) := by
    dsimp only [V, hostOps0]; after_results
  exact e.trans (funext fun i => rfl)

/-- The run, read: the result array at `result` of the concatenation, the two arguments unchanged. -/
theorem run_value (hreal : ∀ c i, ∃ r : ℝ, comb m c i = (r : EReal)) :
    θ_run defs (onTc (τ := τ) (main (F := Ideal))) ⟨m, fun _ => 0, ρ⟩ (fun r => ∀ c : Dev nD,
      r.2.mem ((c.tc : Thread nD τ).loc main_v2) = result (comb m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans (final_o m c (hreal c)),
     ((h c).2 main_arg0 (Pipeline.mem_restRefs_of main_arg0 (by decide) (by decide))).trans (V_main_arg0 m c),
     ((h c).2 main_arg1 (Pipeline.mem_restRefs_of main_arg1 (by decide) (by decide))).trans (V_main_arg1 m c)⟩) (run_main (F := Ideal) m ρ)

end Cert.KernelIdeal.Flash

end
-- ==== Proof.FiniteArgs.lean ====
/-
  Under the precondition every entry of both argument arrays is a real number: the precondition is the conjunction of
  "all |a₀| < +∞" and "all |a₁| < +∞", each a reduction by `and` over every axis.
-/
import proofs.«157192_j51256139710853_2_alg».proof.Proof.LibFiniteEntries
import proofs.«157192_j51256139710853_2_alg».proof.Pre_finite_inputs
import Idealize.ShloMosaic.Lib.Affine

noncomputable section

namespace Cert.FiniteArgs

open Idealize.ShloMosaic Idealize.ShloMosaic.ValueIdx Cert.Pre_finite_inputs

variable [Cert.Pre_finite_inputs.Facts]
open Cert.Pre_finite_inputs.Facts

/-- The precondition makes every entry of both arguments a real. -/
theorem args_real (a0 a1 : FVec Ideal S8x1024x768 .f32)
    (h : Cert.Pre_finite_inputs.fn (F := Ideal) a0 a1 = fun _ => 1#1) :
    (∀ i, ∃ r : ℝ, a0 i = r) ∧ (∀ i, ∃ r : ℝ, a1 i = r) := by
  have h0 := congrFun h ix0
  dsimp only [Cert.Pre_finite_inputs.fn] at h0
  obtain ⟨e0, e1⟩ := IntOp.andi_eq_one.mp h0
  exact ⟨fun i => FiniteEntries.real_of_all a0 bcast_S_S8x1024x768 reducesTo_S8x1024x768_S_d0_1_2 h_S_ _ e0 i,
         fun i => FiniteEntries.real_of_all a1 bcast_S_S8x1024x768 reducesTo_S8x1024x768_S_d0_1_2 h_S_ _ e1 i⟩

end Cert.FiniteArgs

end
-- ==== Proof.lean ====
/-
  Attention over the concatenation of two embeddings, c = [global; local] along the sequence axis:
  out[b, n, :] = ∑ₘ softmax(c[b, n, :] · c[b, m, :])ₘ · c[b, m, :].

  The reference computes it in one pass per row: the scores, their maximum M, the weights exp (s − M), their sum L,
  and ∑ₘ (exp (sₘ − M) / L) · c[b, m, d].  The kernel tiles the query rows and the key rows by 512 and walks the four
  key tiles of a query tile in order, keeping per row a running maximum, a running sum of weights and per (row, column)
  a running weighted sum, all taken against the running maximum: at each key tile it raises the maximum, rescales the
  two sums by exp (old maximum − new maximum) and adds the tile's weights and weighted values; after the last key tile
  it divides the weighted sum by the sum of the weights.  On real data the two agree: the rescaling makes the running
  sums what they would be against the final maximum (exp a · exp b = exp (a + b)), and dividing a sum by L is summing
  the quotients.  Both steps use that every entry is a real number, which is the precondition; on the extended reals
  a change of float format is the identity, so the kernel's narrow copy of c is c.

  The three frames: the reference is a straight line of host operations; the kernel (at words and at the extended
  reals alike) is the two host operations followed by one pipelined region whose query window and key window stand on
  the same array, run point by point through the three shapes its body takes (first, middle, last key tile).
  The idealization rewrote nothing, so it preserves the kernel trivially.
-/
import proofs.«157192_j51256139710853_2_alg».proof.Defs
import proofs.«157192_j51256139710853_2_alg».proof.Proof.Gen.Kernel
import proofs.«157192_j51256139710853_2_alg».proof.Proof.Gen.KernelIdeal
import proofs.«157192_j51256139710853_2_alg».proof.Proof.Gen.ReferenceIdeal
import proofs.«157192_j51256139710853_2_alg».proof.Proof.Gen.Pre_finite_inputs
import proofs.«157192_j51256139710853_2_alg».proof.Proof.Gen.ReferenceIdeal.Run
import proofs.«157192_j51256139710853_2_alg».proof.Proof.WordFlashLaunch
import proofs.«157192_j51256139710853_2_alg».proof.Proof.FlashFinal
import proofs.«157192_j51256139710853_2_alg».proof.Proof.RefRead
import proofs.«157192_j51256139710853_2_alg».proof.Proof.FiniteArgs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Flash.frame m ρ

theorem frame_ki : Cert.frame_KernelIdeal := fun m ρ _ => Cert.KernelIdeal.Flash.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The array the reference works on is the array both of the kernel's input windows read. -/
theorem comb_is (m : (ℓ : Loc Cert.KernelIdeal.nD Cert.KernelIdeal.τ Cert.KernelIdeal.sig) → Buf (Elt Ideal) ℓ) (c : Dev Cert.KernelIdeal.nD) :
    Cert.KernelIdeal.Flash.comb m c
      = Cert.ReferenceIdeal.Read.val_main_v0 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) :=
  Cert.KernelIdeal.Flash.comb_eq m c

/-- Both programs end with the softmax-weighted sums of the concatenation's rows. -/
theorem algebraic : Cert.algebraic_KernelIdeal_ReferenceIdeal := by
  intro m ρ m' ρ' hpre hagree
  have hargs := fun c => Cert.FiniteArgs.args_real _ _ (hpre c)
  have hreal : ∀ c i, ∃ r : ℝ, Cert.KernelIdeal.Flash.comb m c i = (r : EReal) := fun c i => by
    rw [comb_is]
    exact Cert.RefSide.comb_real _ _ (hargs c).1 (hargs c).2 i
  refine ⟨fun c => Cert.KernelIdeal.Flash.result (Cert.KernelIdeal.Flash.comb m c), Cert.KernelIdeal.Flash.run_value m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]
  funext i
  obtain ⟨b, n, d, rfl⟩ : ∃ b n d, i = ix3 b n d := ⟨i 0, i 1, i 2, eq_ix3 i⟩
  rw [Cert.RefSide.ref_apply]
  show _ = Cert.Attn.refOut (fun n' : Fin 2048 => Cert.RefSide.score (Cert.KernelIdeal.Flash.comb m c) b n n')
    (fun n' : Fin 2048 => Cert.KernelIdeal.Flash.comb m c (ix3 b n' d))
  rw [comb_is]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
